-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_cst)) (v1 : (c : Dev Cert.KernelIdeal.nD) → Buf (Elt Ideal) ((c.tc : Thread Cert.KernelIdeal.nD Cert.KernelIdeal.τ).loc Cert.KernelIdeal.main_cst_0)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_arg6)) (v5 : (c : Dev Cert.KernelIdeal.nD) → Buf (Elt Ideal) ((c.tc : Thread Cert.KernelIdeal.nD Cert.KernelIdeal.τ).loc Cert.KernelIdeal.main_arg5)) (v6 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_cst) = v0 c
          ∧ r.2.mem ((c.tc : Thread Cert.KernelIdeal.nD Cert.KernelIdeal.τ).loc Cert.KernelIdeal.main_cst_0) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg5) = v5 c
          ∧ r.2.mem ((c.tc : Thread Cert.KernelIdeal.nD Cert.KernelIdeal.τ).loc Cert.KernelIdeal.main_arg7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_cst) = v0 c
          ∧ r.2.mem ((c.tc : Thread Cert.ReferenceIdeal.nD Cert.ReferenceIdeal.τ).loc Cert.ReferenceIdeal.main_cst_0) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg5) = v5 c
          ∧ r.2.mem ((c.tc : Thread Cert.ReferenceIdeal.nD Cert.ReferenceIdeal.τ).loc Cert.ReferenceIdeal.main_arg7) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32 : Shape := ⟨1, ![32]⟩
abbrev S32x128 : Shape := ⟨2, ![32, 128]⟩
abbrev S401x128 : Shape := ⟨2, ![401, 128]⟩
abbrev S200000x128 : Shape := ⟨2, ![200000, 128]⟩
abbrev S500000x6 : Shape := ⟨2, ![500000, 6]⟩
abbrev S200000x2 : Shape := ⟨2, ![200000, 2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S401x128 : S_.BroadcastsInDim S401x128 (![] : Fin 0 → Fin S401x128.rank)
  reducesTo_S401x128_S_d0_1 : S401x128.ReducesTo [0, 1] S_
  bcast_S_S200000x128 : S_.BroadcastsInDim S200000x128 (![] : Fin 0 → Fin S200000x128.rank)
  reducesTo_S200000x128_S_d0_1 : S200000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg12 : FVec F S128x64 .f32) (main_arg13 : FVec F S64x1 .f32) (main_arg14 : FVec F S1 .f32) (main_arg15 : FVec F S128x128 .f32) (main_v33 : IVec S_ 1) : IVec S_ 1 :=
  let main_v34 : FVec F S128x64 .f32 := Host.absf main_arg12
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64x1 .f32 := Host.absf main_arg13
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg14
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg15
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg9 : FVec F S64 .f32) (main_arg10 : FVec F S128x64 .f32) (main_arg11 : FVec F S128x64 .f32) (main_arg12 : FVec F S128x64 .f32) (main_arg13 : FVec F S64x1 .f32) (main_arg14 : FVec F S1 .f32) (main_arg15 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg9
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg10
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg11
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg12 main_arg13 main_arg14 main_arg15 main_v33

def fn {F : FTy → Type} [FloatOps F] (main_arg0 : IVec S32 32) (main_arg1 : IVec S32 32) (main_arg2 : FVec F S32x128 .f32) (main_arg3 : FVec F S401x128 .f32) (main_arg4 : FVec F S200000x128 .f32) (main_arg5 : IVec S500000x6 32) (main_arg6 : IVec S200000x2 32) (main_arg7 : IVec S32 32) (main_arg8 : FVec F S128x64 .f32) (main_arg9 : FVec F S64 .f32) (main_arg10 : FVec F S128x64 .f32) (main_arg11 : FVec F S128x64 .f32) (main_arg12 : FVec F S128x64 .f32) (main_arg13 : FVec F S64x1 .f32) (main_arg14 : FVec F S1 .f32) (main_arg15 : FVec F S128x128 .f32) : IVec S_ 1 :=
  let main_v0 : FVec F S32x128 .f32 := Host.absf main_arg2
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S401x128 .f32 := Host.absf main_arg3
  let main_cst_0 : FVec F S_ .f32 := constant S_ .f32 0x7F800000#32
  let main_v5 : FVec F S401x128 .f32 := broadcastInDim S401x128 ![] bcast_S_S401x128 main_cst_0
  let main_v6 : IVec S401x128 1 := cmpf .olt main_v4 main_v5
  let main_c_1 : IVec S_ 1 := constantI S_ 1 1#1
  let main_v7 : IVec S_ 1 := (fun x v => Host.reduce IntOp.andi x v reducesTo_S401x128_S_d0_1 h_S_) main_v6 main_c_1
  let main_v8 : IVec S_ 1 := andi main_v3 main_v7
  let main_v9 : FVec F S200000x128 .f32 := Host.absf main_arg4
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S128x64 .f32 := Host.absf main_arg8
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg9 main_arg10 main_arg11 main_arg12 main_arg13 main_arg14 main_arg15 main_v13 main_v16
-- ==== Kernel.lean ====
abbrev S32 : Shape := ⟨1, ![32]⟩
abbrev S32x128 : Shape := ⟨2, ![32, 128]⟩
abbrev S401x128 : Shape := ⟨2, ![401, 128]⟩
abbrev S200000x128 : Shape := ⟨2, ![200000, 128]⟩
abbrev S500000x6 : Shape := ⟨2, ![500000, 6]⟩
abbrev S200000x2 : Shape := ⟨2, ![200000, 2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S2 : Shape := ⟨1, ![2]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S503808x128 : Shape := ⟨2, ![503808, 128]⟩
abbrev S503808x1 : Shape := ⟨2, ![503808, 1]⟩
abbrev S4096x128 : Shape := ⟨2, ![4096, 128]⟩
abbrev S4096x1 : Shape := ⟨2, ![4096, 1]⟩
abbrev S4096x64 : Shape := ⟨2, ![4096, 64]⟩
abbrev S1x64 : Shape := ⟨2, ![1, 64]⟩
abbrev S5000x128 : Shape := ⟨2, ![5000, 128]⟩

abbrev nBuf : Space → Nat
  | .hbm => 71
  | .vmem => 22
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32x128, .f32⟩
  | .hbm, ⟨3, _⟩ => ⟨S401x128, .f32⟩
  | .hbm, ⟨4, _⟩ => ⟨S200000x128, .f32⟩
  | .hbm, ⟨5, _⟩ => ⟨S500000x6, .i32⟩
  | .hbm, ⟨6, _⟩ => ⟨S200000x2, .i32⟩
  | .hbm, ⟨7, _⟩ => ⟨S32, .i32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S64x1, .f32⟩
  | .hbm, ⟨14, _⟩ => ⟨S1, .f32⟩
  | .hbm, ⟨15, _⟩ => ⟨S128x128, .f32⟩
  | .hbm, ⟨16, _⟩ => ⟨S2, .f32⟩
  | .hbm, ⟨17, _⟩ => ⟨S2, .f32⟩
  | .hbm, ⟨18, _⟩ => ⟨S500000x1, .i32⟩
  | .hbm, ⟨19, _⟩ => ⟨S500000, .i32⟩
  | .hbm, ⟨20, _⟩ => ⟨S500000x1, .i32⟩
  | .hbm, ⟨21, _⟩ => ⟨S500000, .i32⟩
  | .hbm, ⟨22, _⟩ => ⟨S500000x1, .i32⟩
  | .hbm, ⟨23, _⟩ => ⟨S500000, .i32⟩
  | .hbm, ⟨24, _⟩ => ⟨S500000x1, .i32⟩
  | .hbm, ⟨25, _⟩ => ⟨S500000, .i32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S_, .i32⟩
  | .hbm, ⟨54, _⟩ => ⟨S_, .f32⟩
  | .hbm, ⟨55, _⟩ => ⟨S503808x128, .f32⟩
  | .hbm, ⟨56, _⟩ => ⟨S_, .i32⟩
  | .hbm, ⟨57, _⟩ => ⟨S_, .f32⟩
  | .hbm, ⟨58, _⟩ => ⟨S503808x128, .f32⟩
  | .hbm, ⟨59, _⟩ => ⟨S_, .i32⟩
  | .hbm, ⟨60, _⟩ => ⟨S_, .f32⟩
  | .hbm, ⟨61, _⟩ => ⟨S503808x128, .f32⟩
  | .hbm, ⟨62, _⟩ => ⟨S503808x128, .f32⟩
  | .hbm, ⟨63, _⟩ => ⟨S503808x1, .f32⟩
  | .hbm, ⟨64, _⟩ => ⟨S500000x128, .f32⟩
  | .hbm, ⟨65, _⟩ => ⟨S500000x1, .f32⟩
  | .hbm, ⟨66, _⟩ => ⟨S_, .f32⟩
  | .hbm, ⟨67, _⟩ => ⟨S200000x128, .f32⟩
  | .hbm, ⟨68, _⟩ => ⟨S500000x1, .i32⟩
  | .hbm, ⟨69, _⟩ => ⟨S200000x128, .f32⟩
  | .hbm, ⟨70, _⟩ => ⟨S200000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S64x1, .f32⟩
  | .local _ .vmem, ⟨12, _⟩ => ⟨S1, .f32⟩
  | .local _ .vmem, ⟨13, _⟩ => ⟨S4096x128, .f32⟩
  | .local _ .vmem, ⟨14, _⟩ => ⟨S4096x128, .f32⟩
  | .local _ .vmem, ⟨15, _⟩ => ⟨S4096x1, .f32⟩
  | .local _ .vmem, ⟨16, _⟩ => ⟨S4096x1, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_call0_v0 : Ref sig .tc := ⟨.hbm, 54, rfl⟩
abbrev main_v29 : Ref sig .tc := ⟨.hbm, 55, rfl⟩
abbrev main_c_7 : Ref sig .tc := ⟨.hbm, 56, rfl⟩
abbrev main_call1_v0 : Ref sig .tc := ⟨.hbm, 57, rfl⟩
abbrev main_v30 : Ref sig .tc := ⟨.hbm, 58, rfl⟩
abbrev main_c_8 : Ref sig .tc := ⟨.hbm, 59, rfl⟩
abbrev main_call2_v0 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v33 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S500000x6_S500000x1_0_4 : S500000x6.Slices ![0, 4] S500000x1
  shapeCasts_S500000x1_S500000 : S500000x1.ShapeCasts S500000
  slices_S500000x6_S500000x1_0_2 : S500000x6.Slices ![0, 2] S500000x1
  slices_S500000x6_S500000x1_0_5 : S500000x6.Slices ![0, 5] S500000x1
  slices_S500000x6_S500000x1_0_0 : S500000x6.Slices ![0, 0] S500000x1
  bcast_S_S500000 : S_.BroadcastsInDim S500000 (![] : Fin 0 → Fin S500000.rank)
  bcast_S500000_S500000x1_0 : S500000.BroadcastsInDim S500000x1 (![0] : Fin 1 → Fin S500000x1.rank)
  pads_S500000x128_S503808x128_038080_000 : S500000x128.Pads (![0, 0] : Fin 2 → Nat) ![3808, 0] ![0, 0] S503808x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  inpos_S1_p0 : ∀ a, (![0] : Fin 1 → Nat) a < S1.size a
  broadcasts_S4096x1_S4096x128 : S4096x1.Broadcasts S4096x128
  inb_S4096x1_S4096x1_0_0 : ∀ a, (![0, 0] : Fin 2 → Nat) a + S4096x1.size a ≤ S4096x1.size a
  h_S4096x1 : 0 < S4096x1.numel
  slices_S503808x128_S500000x128_0_0 : S503808x128.Slices ![0, 0] S500000x128
  slices_S503808x1_S500000x1_0_0 : S503808x1.Slices ![0, 0] S500000x1
  bcast_S_S200000x128 : S_.BroadcastsInDim S200000x128 (![] : Fin 0 → Fin S200000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S200000x128_S500000x1_S500000x128_1_0_n_n_0_1_1128_wf : GatherDims.WF S200000x128 S500000x1 S500000x128 [1] [0] [] [0] [] 1 ![1, 128]
  gather_S401x128_S500000x1_S500000x128_1_0_n_n_0_1_1128_wf : GatherDims.WF S401x128 S500000x1 S500000x128 [1] [0] [] [0] [] 1 ![1, 128]
  gather_S32x128_S500000x1_S500000x128_1_0_n_n_0_1_1128_wf : GatherDims.WF S32x128 S500000x1 S500000x128 [1] [0] [] [0] [] 1 ![1, 128]
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  scatter_S200000x128_S500000x1_S500000x128_1_0_0_1_wf : ScatterDims.WF S200000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .f32 = 32 ∨ (Rect.block (s := S503808x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S503808x128.size a
  hwx0_10 : ∀ i : grid0.Coords, EltTy.bits .f32 = 32 ∨ (Rect.block (s := S503808x128) S4096x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S503808x1.size a
  hwx0_11 : ∀ i : grid0.Coords, EltTy.bits .f32 = 32 ∨ (Rect.block (s := S503808x1) S4096x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S200000x128.size a
  hwx1_2 : ∀ i : grid1.Coords, EltTy.bits .f32 = 32 ∨ (Rect.block (s := S200000x128) S5000x128.size (cc1_transform_2 i) (hinb1_2 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S401x128_S500000x1_S500000x128_1_0_n_n_0_1_1128 : GatherDims S401x128 S500000x1 S500000x128 where
  offsetDims := [1]
  collapsedSliceDims := [0]
  operandBatchingDims := []
  startIndicesBatchingDims := []
  startIndexMap := [0]
  indexVectorDim := 1
  sliceSizes := ![1, 128]
  wf := gather_S401x128_S500000x1_S500000x128_1_0_n_n_0_1_1128_wf
def gather_S32x128_S500000x1_S500000x128_1_0_n_n_0_1_1128 : GatherDims S32x128 S500000x1 S500000x128 where
  offsetDims := [1]
  collapsedSliceDims := [0]
  operandBatchingDims := []
  startIndicesBatchingDims := []
  startIndexMap := [0]
  indexVectorDim := 1
  sliceSizes := ![1, 128]
  wf := gather_S32x128_S500000x1_S500000x128_1_0_n_n_0_1_1128_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32_0) S4096x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v32_1) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32 : Shape := ⟨1, ![32]⟩
abbrev S32x128 : Shape := ⟨2, ![32, 128]⟩
abbrev S401x128 : Shape := ⟨2, ![401, 128]⟩
abbrev S200000x128 : Shape := ⟨2, ![200000, 128]⟩
abbrev S500000x6 : Shape := ⟨2, ![500000, 6]⟩
abbrev S200000x2 : Shape := ⟨2, ![200000, 2]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S2 : Shape := ⟨1, ![2]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S500000x64 : Shape := ⟨2, ![500000, 64]⟩
abbrev S1x64 : Shape := ⟨2, ![1, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32x128, .f32⟩
  | .hbm, ⟨3, _⟩ => ⟨S401x128, .f32⟩
  | .hbm, ⟨4, _⟩ => ⟨S200000x128, .f32⟩
  | .hbm, ⟨5, _⟩ => ⟨S500000x6, .i32⟩
  | .hbm, ⟨6, _⟩ => ⟨S200000x2, .i32⟩
  | .hbm, ⟨7, _⟩ => ⟨S32, .i32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S64x1, .f32⟩
  | .hbm, ⟨14, _⟩ => ⟨S1, .f32⟩
  | .hbm, ⟨15, _⟩ => ⟨S128x128, .f32⟩
  | .hbm, ⟨16, _⟩ => ⟨S2, .f32⟩
  | .hbm, ⟨17, _⟩ => ⟨S2, .f32⟩
  | .hbm, ⟨18, _⟩ => ⟨S500000x1, .i32⟩
  | .hbm, ⟨19, _⟩ => ⟨S500000, .i32⟩
  | .hbm, ⟨20, _⟩ => ⟨S500000x1, .i32⟩
  | .hbm, ⟨21, _⟩ => ⟨S500000, .i32⟩
  | .hbm, ⟨22, _⟩ => ⟨S500000x1, .i32⟩
  | .hbm, ⟨23, _⟩ => ⟨S500000, .i32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S500000x1, .i32⟩
  | .hbm, ⟨43, _⟩ => ⟨S500000, .i32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x128, .f32⟩
  | .hbm, ⟨53, _⟩ => ⟨S500000x64, .f32⟩
  | .hbm, ⟨54, _⟩ => ⟨S1x64, .f32⟩
  | .hbm, ⟨55, _⟩ => ⟨S500000x64, .f32⟩
  | .hbm, ⟨56, _⟩ => ⟨S500000x64, .f32⟩
  | .hbm, ⟨57, _⟩ => ⟨S500000x64, .f32⟩
  | .hbm, ⟨58, _⟩ => ⟨S500000x64, .f32⟩
  | .hbm, ⟨59, _⟩ => ⟨S500000x64, .f32⟩
  | .hbm, ⟨60, _⟩ => ⟨S500000x64, .f32⟩
  | .hbm, ⟨61, _⟩ => ⟨S500000x128, .f32⟩
  | .hbm, ⟨62, _⟩ => ⟨S500000x64, .f32⟩
  | .hbm, ⟨63, _⟩ => ⟨S500000x64, .f32⟩
  | .hbm, ⟨64, _⟩ => ⟨S_, .f32⟩
  | .hbm, ⟨65, _⟩ => ⟨S500000x64, .f32⟩
  | .hbm, ⟨66, _⟩ => ⟨S500000x64, .f32⟩
  | .hbm, ⟨67, _⟩ => ⟨S500000x1, .f32⟩
  | .hbm, ⟨68, _⟩ => ⟨S1x1, .f32⟩
  | .hbm, ⟨69, _⟩ => ⟨S500000x1, .f32⟩
  | .hbm, ⟨70, _⟩ => ⟨S500000x1, .f32⟩
  | .hbm, ⟨71, _⟩ => ⟨S500000x1, .f32⟩
  | .hbm, ⟨72, _⟩ => ⟨S500000x1, .f32⟩
  | .hbm, ⟨73, _⟩ => ⟨S_, .f32⟩
  | .hbm, ⟨74, _⟩ => ⟨S500000x1, .f32⟩
  | .hbm, ⟨75, _⟩ => ⟨S500000x1, .f32⟩
  | .hbm, ⟨76, _⟩ => ⟨S_, .f32⟩
  | .hbm, ⟨77, _⟩ => ⟨S500000x1, .f32⟩
  | .hbm, ⟨78, _⟩ => ⟨S500000x1, .f32⟩
  | .hbm, ⟨79, _⟩ => ⟨S500000x128, .f32⟩
  | .hbm, ⟨80, _⟩ => ⟨S500000x128, .f32⟩
  | .hbm, ⟨81, _⟩ => ⟨S500000x128, .f32⟩
  | .hbm, ⟨82, _⟩ => ⟨S_, .f32⟩
  | .hbm, ⟨83, _⟩ => ⟨S200000x128, .f32⟩
  | .hbm, ⟨84, _⟩ => ⟨S500000x1, .i32⟩
  | .hbm, ⟨85, _⟩ => ⟨S200000x128, .f32⟩
  | .hbm, ⟨86, _⟩ => ⟨S200000x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call0_cst : Ref sig .tc := ⟨.hbm, 64, rfl⟩
abbrev main_call0_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  slices_S500000x6_S500000x1_0_4 : S500000x6.Slices ![0, 4] S500000x1
  shapeCasts_S500000x1_S500000 : S500000x1.ShapeCasts S500000
  slices_S500000x6_S500000x1_0_2 : S500000x6.Slices ![0, 2] S500000x1
  slices_S500000x6_S500000x1_0_5 : S500000x6.Slices ![0, 5] S500000x1
  bcast_S_S500000 : S_.BroadcastsInDim S500000 (![] : Fin 0 → Fin S500000.rank)
  bcast_S500000_S500000x1_0 : S500000.BroadcastsInDim S500000x1 (![0] : Fin 1 → Fin S500000x1.rank)
  slices_S500000x6_S500000x1_0_0 : S500000x6.Slices ![0, 0] S500000x1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S200000x128 : S_.BroadcastsInDim S200000x128 (![] : Fin 0 → Fin S200000x128.rank)
  gather_S200000x128_S500000x1_S500000x128_1_0_n_n_0_1_1128_wf : GatherDims.WF S200000x128 S500000x1 S500000x128 [1] [0] [] [0] [] 1 ![1, 128]
  gather_S401x128_S500000x1_S500000x128_1_0_n_n_0_1_1128_wf : GatherDims.WF S401x128 S500000x1 S500000x128 [1] [0] [] [0] [] 1 ![1, 128]
  gather_S32x128_S500000x1_S500000x128_1_0_n_n_0_1_1128_wf : GatherDims.WF S32x128 S500000x1 S500000x128 [1] [0] [] [0] [] 1 ![1, 128]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []
  scatter_S200000x128_S500000x1_S500000x128_1_0_0_1_wf : ScatterDims.WF S200000x128 S500000x1 S500000x128 [1] [0] [0] 1
  dot_S200000x128_S128x128_S200000x128_1_0_0_1_n_n_wf : DotDims.WF S200000x128 S128x128 S200000x128 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S401x128_S500000x1_S500000x128_1_0_n_n_0_1_1128 : GatherDims S401x128 S500000x1 S500000x128 where
  offsetDims := [1]
  collapsedSliceDims := [0]
  operandBatchingDims := []
  startIndicesBatchingDims := []
  startIndexMap := [0]
  indexVectorDim := 1
  sliceSizes := ![1, 128]
  wf := gather_S401x128_S500000x1_S500000x128_1_0_n_n_0_1_1128_wf
def gather_S32x128_S500000x1_S500000x128_1_0_n_n_0_1_1128 : GatherDims S32x128 S500000x1 S500000x128 where
  offsetDims := [1]
  collapsedSliceDims := [0]
  operandBatchingDims := []
  startIndicesBatchingDims := []
  startIndexMap := [0]
  indexVectorDim := 1
  sliceSizes := ![1, 128]
  wf := gather_S32x128_S500000x1_S500000x128_1_0_n_n_0_1_1128_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.RunAll.lean ====
/-
  The kernel program's run with its final memory NAMED: every weakly fair execution of the two-region program
  terminates, nothing faulting, and every buffer that outlives the regions ends at the last boundary's contents —
  the fold of the host operations and of the two regions' write-backs from the launch memory.
  The frame conjunct keeps of this only that the argument arrays end as launched; the value claim needs the result
  buffers too, so the same launch over the same segments is stated here with the final reading kept whole.
-/
import proofs.«141558_j82678120448824_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped to a region ends at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.RunAll

end
-- ==== Proof.HostReads.lean ====
/-
  What the host operations around the two regions compute, read off the fold of buffer contents through the program:
  the weight arrays reach both regions as launched; region 0's three row operands are the gathered rows of
  `hidden`, `rela_embed` and `q_emb` padded with 3808 zero rows; region 1's operand is the scatter-add of the first
  500000 rows of region 0's message array by the edges' object column; the attention result is the first 500000 rows
  of region 0's second output; the two constant results are the literals.
-/
import proofs.«141558_j82678120448824_1_alg».proof.Proof.Gen.KernelIdeal.Frame
import proofs.«141558_j82678120448824_1_alg».proof.Proof.Gen.ReferenceIdeal.Read
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes holds after the stretch what it held before. -/
macro "not_written" : tactic =>
  `(tactic| (refine StableHlo.after_of_forall_not_mem _ _ (List.forall_iff_forall_mem.mp ?_)
             simp only [hostOps0, hostOps0_1, hostOps0_2, hostOps0_3, hostOps0_4, hostOps0_5, hostOps1,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The weights reach region 0 as launched -/

theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := by not_written
    _ = W4 m ρ c (Proc.devRef .tc main_arg8) := by not_written
    _ = W3 m ρ c (Proc.devRef .tc main_arg8) := by not_written
    _ = W2 m ρ c (Proc.devRef .tc main_arg8) := by not_written
    _ = W1 m ρ c (Proc.devRef .tc main_arg8) := by not_written
    _ = W0 m ρ c (Proc.devRef .tc main_arg8) := by not_written
    _ = m ((c : Thread nD τ).loc main_arg8) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := by not_written
    _ = W4 m ρ c (Proc.devRef .tc main_arg9) := by not_written
    _ = W3 m ρ c (Proc.devRef .tc main_arg9) := by not_written
    _ = W2 m ρ c (Proc.devRef .tc main_arg9) := by not_written
    _ = W1 m ρ c (Proc.devRef .tc main_arg9) := by not_written
    _ = W0 m ρ c (Proc.devRef .tc main_arg9) := by not_written
    _ = m ((c : Thread nD τ).loc main_arg9) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by not_written
    _ = W4 m ρ c (Proc.devRef .tc main_arg10) := by not_written
    _ = W3 m ρ c (Proc.devRef .tc main_arg10) := by not_written
    _ = W2 m ρ c (Proc.devRef .tc main_arg10) := by not_written
    _ = W1 m ρ c (Proc.devRef .tc main_arg10) := by not_written
    _ = W0 m ρ c (Proc.devRef .tc main_arg10) := by not_written
    _ = m ((c : Thread nD τ).loc main_arg10) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by not_written
    _ = W4 m ρ c (Proc.devRef .tc main_arg11) := by not_written
    _ = W3 m ρ c (Proc.devRef .tc main_arg11) := by not_written
    _ = W2 m ρ c (Proc.devRef .tc main_arg11) := by not_written
    _ = W1 m ρ c (Proc.devRef .tc main_arg11) := by not_written
    _ = W0 m ρ c (Proc.devRef .tc main_arg11) := by not_written
    _ = m ((c : Thread nD τ).loc main_arg11) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := by not_written
    _ = W4 m ρ c (Proc.devRef .tc main_arg12) := by not_written
    _ = W3 m ρ c (Proc.devRef .tc main_arg12) := by not_written
    _ = W2 m ρ c (Proc.devRef .tc main_arg12) := by not_written
    _ = W1 m ρ c (Proc.devRef .tc main_arg12) := by not_written
    _ = W0 m ρ c (Proc.devRef .tc main_arg12) := by not_written
    _ = m ((c : Thread nD τ).loc main_arg12) := rfl

theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := by not_written
    _ = W4 m ρ c (Proc.devRef .tc main_arg13) := by not_written
    _ = W3 m ρ c (Proc.devRef .tc main_arg13) := by not_written
    _ = W2 m ρ c (Proc.devRef .tc main_arg13) := by not_written
    _ = W1 m ρ c (Proc.devRef .tc main_arg13) := by not_written
    _ = W0 m ρ c (Proc.devRef .tc main_arg13) := by not_written
    _ = m ((c : Thread nD τ).loc main_arg13) := rfl

theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := by not_written
    _ = W4 m ρ c (Proc.devRef .tc main_arg14) := by not_written
    _ = W3 m ρ c (Proc.devRef .tc main_arg14) := by not_written
    _ = W2 m ρ c (Proc.devRef .tc main_arg14) := by not_written
    _ = W1 m ρ c (Proc.devRef .tc main_arg14) := by not_written
    _ = W0 m ρ c (Proc.devRef .tc main_arg14) := by not_written
    _ = m ((c : Thread nD τ).loc main_arg14) := rfl

/-! ## The last weight reaches region 1 as launched -/

theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := by not_written
    _ = W6 m ρ c (Proc.devRef .tc main_arg15) := W7_of_ne m ρ c main_arg15 (by decide)
    _ = W5 m ρ c (Proc.devRef .tc main_arg15) := by not_written
    _ = W4 m ρ c (Proc.devRef .tc main_arg15) := by not_written
    _ = W3 m ρ c (Proc.devRef .tc main_arg15) := by not_written
    _ = W2 m ρ c (Proc.devRef .tc main_arg15) := by not_written
    _ = W1 m ρ c (Proc.devRef .tc main_arg15) := by not_written
    _ = W0 m ρ c (Proc.devRef .tc main_arg15) := by not_written
    _ = m ((c : Thread nD τ).loc main_arg15) := rfl

/-! ## The host operations before region 0 -/

/-- The gathered rows of `hidden`: the reference's own gather of the launch arrays. -/
theorem W1_v14 (c : Dev nD) : W1 m ρ c (Proc.devRef .tc main_v14)
    = Cert.ReferenceIdeal.Read.val_main_v12 (F := F) (m ((c : Thread nD τ).loc main_arg4)) (m ((c : Thread nD τ).loc main_arg5)) := by
  show StableHlo.after hostOps0 (W0 m ρ c) (Proc.devRef .tc main_v14) = _
  dsimp only [hostOps0]
  after_results_simp <;> rfl

/-- The gathered rows of `rela_embed`. -/
theorem W1_v21 (c : Dev nD) : W1 m ρ c (Proc.devRef .tc main_v21)
    = Cert.ReferenceIdeal.Read.val_main_v19 (F := F) (m ((c : Thread nD τ).loc main_arg3)) (m ((c : Thread nD τ).loc main_arg5)) := by
  show StableHlo.after hostOps0 (W0 m ρ c) (Proc.devRef .tc main_v21) = _
  dsimp only [hostOps0]
  after_results_simp <;> rfl

/-- The gathered rows of `q_emb`. -/
theorem W1_v28 (c : Dev nD) : W1 m ρ c (Proc.devRef .tc main_v28)
    = Cert.ReferenceIdeal.Read.val_main_v28 (F := F) (m ((c : Thread nD τ).loc main_arg2)) (m ((c : Thread nD τ).loc main_arg5)) := by
  show StableHlo.after hostOps0 (W0 m ρ c) (Proc.devRef .tc main_v28) = _
  dsimp only [hostOps0]
  after_results_simp <;> rfl

/-- The edges' object column, as the reference slices it. -/
theorem W1_v5 (c : Dev nD) : W1 m ρ c (Proc.devRef .tc main_v5)
    = Cert.ReferenceIdeal.Read.val_main_v5 (F := F) (m ((c : Thread nD τ).loc main_arg5)) := by
  show StableHlo.after hostOps0 (W0 m ρ c) (Proc.devRef .tc main_v5) = _
  dsimp only [hostOps0]
  after_results_simp <;> rfl

/-- The two constant results. -/
theorem W1_cst (c : Dev nD) : W1 m ρ c (Proc.devRef .tc main_cst) = constant S2 .f32 0x45C35000#32 := by
  show StableHlo.after hostOps0 (W0 m ρ c) (Proc.devRef .tc main_cst) = _
  dsimp only [hostOps0]
  after_results_simp <;> rfl
theorem W1_cst_0 (c : Dev nD) : W1 m ρ c (Proc.devRef .tc main_cst_0) = constant S2 .f32 0x46742400#32 := by
  show StableHlo.after hostOps0 (W0 m ρ c) (Proc.devRef .tc main_cst_0) = _
  dsimp only [hostOps0]
  after_results_simp <;> rfl

/-- Region 0's three row operands: the gathered rows under 3808 rows of the padding value (the integer zero converted). -/
theorem W2_v29 (c : Dev nD) : W2 m ρ c (Proc.devRef .tc main_v29)
    = pad S503808x128 ![0, 0] ![3808, 0] ![0, 0]
        (Cert.ReferenceIdeal.Read.val_main_v12 (F := F) (m ((c : Thread nD τ).loc main_arg4)) (m ((c : Thread nD τ).loc main_arg5)))
        (sitofp .f32 (constantI S_ 32 0#32 : (⟨S_, .i32⟩ : BufTy).Contents (Elt F))) pads_S500000x128_S503808x128_038080_000 h_S_ := by
  show StableHlo.after hostOps0_1 (W1 m ρ c) (Proc.devRef .tc main_v29) = _
  dsimp only [hostOps0_1]
  after_results_simp <;> rfl

theorem W4_v30 (c : Dev nD) : W4 m ρ c (Proc.devRef .tc main_v30)
    = pad S503808x128 ![0, 0] ![3808, 0] ![0, 0]
        (Cert.ReferenceIdeal.Read.val_main_v19 (F := F) (m ((c : Thread nD τ).loc main_arg3)) (m ((c : Thread nD τ).loc main_arg5)))
        (sitofp .f32 (constantI S_ 32 0#32 : (⟨S_, .i32⟩ : BufTy).Contents (Elt F))) pads_S500000x128_S503808x128_038080_000 h_S_ := by
  show StableHlo.after hostOps0_3 (W3 m ρ c) (Proc.devRef .tc main_v30) = _
  dsimp only [hostOps0_3]
  after_results_simp <;> rfl

theorem W6_v31 (c : Dev nD) : W6 m ρ c (Proc.devRef .tc main_v31)
    = pad S503808x128 ![0, 0] ![3808, 0] ![0, 0]
        (Cert.ReferenceIdeal.Read.val_main_v28 (F := F) (m ((c : Thread nD τ).loc main_arg2)) (m ((c : Thread nD τ).loc main_arg5)))
        (sitofp .f32 (constantI S_ 32 0#32 : (⟨S_, .i32⟩ : BufTy).Contents (Elt F))) pads_S500000x128_S503808x128_038080_000 h_S_ := by
  show StableHlo.after hostOps0_5 (W5 m ρ c) (Proc.devRef .tc main_v31) = _
  dsimp only [hostOps0_5]
  after_results_simp <;> rfl

theorem W6_v29 (c : Dev nD) : W6 m ρ c (Proc.devRef .tc main_v29) = pad S503808x128 ![0, 0] ![3808, 0] ![0, 0]
        (Cert.ReferenceIdeal.Read.val_main_v12 (F := F) (m ((c : Thread nD τ).loc main_arg4)) (m ((c : Thread nD τ).loc main_arg5)))
        (sitofp .f32 (constantI S_ 32 0#32 : (⟨S_, .i32⟩ : BufTy).Contents (Elt F))) pads_S500000x128_S503808x128_038080_000 h_S_ :=
  calc W6 m ρ c (Proc.devRef .tc main_v29)
    _ = W5 m ρ c (Proc.devRef .tc main_v29) := by not_written
    _ = W4 m ρ c (Proc.devRef .tc main_v29) := by not_written
    _ = W3 m ρ c (Proc.devRef .tc main_v29) := by not_written
    _ = W2 m ρ c (Proc.devRef .tc main_v29) := by not_written
    _ = _ := W2_v29 m ρ c

theorem W6_v30 (c : Dev nD) : W6 m ρ c (Proc.devRef .tc main_v30) = pad S503808x128 ![0, 0] ![3808, 0] ![0, 0]
        (Cert.ReferenceIdeal.Read.val_main_v19 (F := F) (m ((c : Thread nD τ).loc main_arg3)) (m ((c : Thread nD τ).loc main_arg5)))
        (sitofp .f32 (constantI S_ 32 0#32 : (⟨S_, .i32⟩ : BufTy).Contents (Elt F))) pads_S500000x128_S503808x128_038080_000 h_S_ :=
  calc W6 m ρ c (Proc.devRef .tc main_v30)
    _ = W5 m ρ c (Proc.devRef .tc main_v30) := by not_written
    _ = W4 m ρ c (Proc.devRef .tc main_v30) := by not_written
    _ = _ := W4_v30 m ρ c

/-! ## Between the regions, and the results -/

/-- Region 0's outputs at its exit are what its write-backs leave. -/
theorem W7_v32_0 (c : Dev nD) : W7 m ρ c (Proc.devRef .tc main_v32_0) = (dat0 (V6 m ρ) c).arrAt 10 cfg0.N := W7_arr m ρ c 10
theorem W7_v32_1 (c : Dev nD) : W7 m ρ c (Proc.devRef .tc main_v32_1) = (dat0 (V6 m ρ) c).arrAt 11 cfg0.N := W7_arr m ρ c 11

/-- The edges' object column is still there after region 0. -/
theorem W7_v5 (c : Dev nD) : W7 m ρ c (Proc.devRef .tc main_v5)
    = Cert.ReferenceIdeal.Read.val_main_v5 (F := F) (m ((c : Thread nD τ).loc main_arg5)) :=
  calc W7 m ρ c (Proc.devRef .tc main_v5)
    _ = W6 m ρ c (Proc.devRef .tc main_v5) := W7_of_ne m ρ c main_v5 (by decide)
    _ = W5 m ρ c (Proc.devRef .tc main_v5) := by not_written
    _ = W4 m ρ c (Proc.devRef .tc main_v5) := by not_written
    _ = W3 m ρ c (Proc.devRef .tc main_v5) := by not_written
    _ = W2 m ρ c (Proc.devRef .tc main_v5) := by not_written
    _ = W1 m ρ c (Proc.devRef .tc main_v5) := by not_written
    _ = _ := W1_v5 m ρ c

/-- Region 1's row operand: the scatter-add, by the object column, of the first 500000 rows of region 0's message array
    into zeros. -/
theorem W8_v37 (c : Dev nD) : W8 m ρ c (Proc.devRef .tc main_v37)
    = Host.scatterAdd scatter_S200000x128_S500000x1_S500000x128_1_0_0_1
        (Cert.ReferenceIdeal.Read.val_main_v54 (F := F))
        (Cert.ReferenceIdeal.Read.val_main_v55 (F := F) (m ((c : Thread nD τ).loc main_arg5)))
        (extractStridedSlice S500000x128 ![0, 0] ((dat0 (V6 m ρ) c).arrAt 10 cfg0.N) slices_S503808x128_S500000x128_0_0) := by
  show StableHlo.after hostOps1 (W7 m ρ c) (Proc.devRef .tc main_v37) = _
  dsimp only [hostOps1]
  after_results_simp
  rw [W7_v5, W7_v32_0]
  rfl

/-- The attention result: the first 500000 rows of region 0's attention array. -/
theorem W9_v34 (c : Dev nD) : W9 m ρ c (Proc.devRef .tc main_v34)
    = extractStridedSlice S500000x1 ![0, 0] ((dat0 (V6 m ρ) c).arrAt 11 cfg0.N) slices_S503808x1_S500000x1_0_0 := by
  refine (W9_of_ne m ρ c main_v34 (by decide)).trans ?_
  show StableHlo.after hostOps1 (W7 m ρ c) (Proc.devRef .tc main_v34) = _
  dsimp only [hostOps1]
  after_results_simp
  rw [W7_v32_1]

/-- The new hidden state: what region 1's write-backs leave. -/
theorem W9_v38 (c : Dev nD) : W9 m ρ c (Proc.devRef .tc main_v38) = (dat1 (V8 m ρ) c).arrAt 2 cfg1.N := W9_arr m ρ c 2

/-- The two constant results survive to the end. -/
theorem W9_cst (c : Dev nD) : W9 m ρ c (Proc.devRef .tc main_cst) = constant S2 .f32 0x45C35000#32 :=
  calc W9 m ρ c (Proc.devRef .tc main_cst)
    _ = W8 m ρ c (Proc.devRef .tc main_cst) := W9_of_ne m ρ c main_cst (by decide)
    _ = W7 m ρ c (Proc.devRef .tc main_cst) := by not_written
    _ = W6 m ρ c (Proc.devRef .tc main_cst) := W7_of_ne m ρ c main_cst (by decide)
    _ = W5 m ρ c (Proc.devRef .tc main_cst) := by not_written
    _ = W4 m ρ c (Proc.devRef .tc main_cst) := by not_written
    _ = W3 m ρ c (Proc.devRef .tc main_cst) := by not_written
    _ = W2 m ρ c (Proc.devRef .tc main_cst) := by not_written
    _ = W1 m ρ c (Proc.devRef .tc main_cst) := by not_written
    _ = _ := W1_cst m ρ c

theorem W9_cst_0 (c : Dev nD) : W9 m ρ c (Proc.devRef .tc main_cst_0) = constant S2 .f32 0x46742400#32 :=
  calc W9 m ρ c (Proc.devRef .tc main_cst_0)
    _ = W8 m ρ c (Proc.devRef .tc main_cst_0) := W9_of_ne m ρ c main_cst_0 (by decide)
    _ = W7 m ρ c (Proc.devRef .tc main_cst_0) := by not_written
    _ = W6 m ρ c (Proc.devRef .tc main_cst_0) := W7_of_ne m ρ c main_cst_0 (by decide)
    _ = W5 m ρ c (Proc.devRef .tc main_cst_0) := by not_written
    _ = W4 m ρ c (Proc.devRef .tc main_cst_0) := by not_written
    _ = W3 m ρ c (Proc.devRef .tc main_cst_0) := by not_written
    _ = W2 m ρ c (Proc.devRef .tc main_cst_0) := by not_written
    _ = W1 m ρ c (Proc.devRef .tc main_cst_0) := by not_written
    _ = _ := W1_cst_0 m ρ c

end Cert.KernelIdeal.HostReads

end
-- ==== Proof.Spec.lean ====
/-
  The mathematics both programs compute, one edge (row) at a time, over the extended reals.

  For an edge with gathered rows hs, hr, hq (each 128 long) and the layer's weights:
    pre[a]   = (((Σ_k hs[k]·Ws[k,a] + b[a]) + Σ_k hr[k]·Wr[k,a]) + Σ_k hq[k]·Wq[k,a]) + Σ_k (hr[k]·hq[k])·Wqr[k,a]
    logit    = Σ_a max(pre[a], 0)·Wα[a,0] + bα[0]
    alpha    = logistic(logit)
    msg[d]   = alpha · (hs[d]·hr[d])
  The additions are grouped exactly as both programs group them, so no law of the extended reals beyond
  congruence is needed to join the two sides.
-/
import Idealize.ShloMosaic.PureOps.Ideal
import Idealize.ShloMosaic.Lib.ValueIdx

noncomputable section

namespace Cert.Attn

open Idealize.ShloMosaic Idealize.ShloMosaic.ValueIdx

/-- The layer's weights, each as a function of its literal-shape index. -/
structure Weights where
  Ws  : (⟨2, ![128, 64]⟩ : Shape).Idx → EReal
  b   : (⟨1, ![64]⟩ : Shape).Idx → EReal
  Wr  : (⟨2, ![128, 64]⟩ : Shape).Idx → EReal
  Wq  : (⟨2, ![128, 64]⟩ : Shape).Idx → EReal
  Wqr : (⟨2, ![128, 64]⟩ : Shape).Idx → EReal
  Wa  : (⟨2, ![64, 1]⟩ : Shape).Idx → EReal
  ba  : (⟨1, ![1]⟩ : Shape).Idx → EReal

/-- The attention MLP's pre-activation of one edge at hidden unit `a`. -/
def rowPre (W : Weights) (hs hr hq : Fin 128 → EReal) (a : Fin 64) : EReal :=
  (((∑ k : Fin 128, hs k * W.Ws (ix2 k a)) + W.b (ix1 a)) + (∑ k : Fin 128, hr k * W.Wr (ix2 k a))
      + (∑ k : Fin 128, hq k * W.Wq (ix2 k a))) + ∑ k : Fin 128, (hr k * hq k) * W.Wqr (ix2 k a)

/-- The edge's attention logit: the rectified pre-activations against the output column, plus the bias. -/
def rowLogit (W : Weights) (hs hr hq : Fin 128 → EReal) : EReal :=
  (∑ a : Fin 64, max (rowPre W hs hr hq a) (Ideal.ofBits .f32 0x00000000#32) * W.Wa (ix2 a (0 : Fin 1))) + W.ba (ix1 (0 : Fin 1))

/-- The edge's attention weight. -/
def rowAlpha (W : Weights) (hs hr hq : Fin 128 → EReal) : EReal :=
  Ideal.logistic (rowLogit W hs hr hq)

/-- The edge's message at feature `d`. -/
def rowMsg (W : Weights) (hs hr hq : Fin 128 → EReal) (d : Fin 128) : EReal :=
  rowAlpha W hs hr hq * (hs d * hr d)

/-- Row `n` of a 128-column matrix against a 128×128 matrix, at column `d`. -/
def rowDot (x : Fin 128 → EReal) (w : (⟨2, ![128, 128]⟩ : Shape).Idx → EReal) (d : Fin 128) : EReal :=
  ∑ k : Fin 128, x k * w (ix2 k d)

end Cert.Attn

end
-- ==== Proof.KernelRows.lean ====
/-
  The kernel bodies' stored values, one row at a time, over the extended reals.

  Each body stores one whole block computed from whole blocks it loaded.  Read at a row `p` of the block (and a column
  where the block has more than one), the value depends on row `p` of the loaded row blocks and on the weights only:
    • the matrix-product body leaves, at (p, d), the sum over k of x[p,k]·w[k,d];
    • the attention body leaves, at (p, 0) of its second output, the logistic of the edge's logit, and at (p, d) of its
      first output that weight times hs[p,d]·hr[p,d].
  A change of float format is the identity on the extended reals and a product into a zero accumulator is the plain sum,
  so each value is the per-row function of the specification with the additions grouped as the body groups them.
-/
import proofs.«141558_j82678120448824_1_alg».proof.Proof.Gen.KernelIdeal.Frame
import proofs.«141558_j82678120448824_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Cert.Attn Idealize.ShloMosaic Idealize.ShloMosaic.ValueIdx

/-! ## Whole-block rectangles sit at offset zero -/

theorem zero_off2 : (![0, 0] : Fin 2 → Nat) = fun _ => 0 := funext fun a => by fin_cases a <;> rfl

theorem zero_off1 : (![0] : Fin 1 → Nat) = fun _ => 0 := funext fun a => by fin_cases a <;> rfl

/-! ## A matrix product into the zero accumulator, read at (p, c): the sum over the shared axis -/

/-- [5000,128] × [128,128]. -/
theorem matmul_5000x128_128x128 {φ₁ φ₂ : FTy} (lhs : FVec Ideal S5000x128 φ₁) (rhs : FVec Ideal S128x128 φ₂) (p : Fin 5000) (c : Fin 128) :
    FloatOps.matmul dot_S5000x128_S128x128_S5000x128_1_0_0_1_n_n none lhs rhs (constant S5000x128 .f32 0x00000000#32) (ix2 p c)
      = ∑ k : Fin 128, lhs (ix2 p k) * rhs (ix2 k c) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have l0 : ∀ q : dot_S5000x128_S128x128_S5000x128_1_0_0_1_n_n.contr.Idx, (dot_S5000x128_S128x128_S5000x128_1_0_0_1_n_n.lhsIdx (ix2 p c) q 0).val = p.val := fun q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  have r1 : ∀ q : dot_S5000x128_S128x128_S5000x128_1_0_0_1_n_n.contr.Idx, (dot_S5000x128_S128x128_S5000x128_1_0_0_1_n_n.rhsIdx (ix2 p c) q 1).val = c.val := fun q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl
  have el : dot_S5000x128_S128x128_S5000x128_1_0_0_1_n_n.lhsIdx (ix2 p c) ((contrEquiv1 dot_S5000x128_S128x128_S5000x128_1_0_0_1_n_n 128 rfl rfl).symm k) = ix2 p k :=
    funext fun a => Fin.ext (by
      match a with
      | ⟨0, _⟩ => exact l0 _
      | ⟨1, _⟩ => exact (dot_S5000x128_S128x128_S5000x128_1_0_0_1_n_n.lhsIdx_val_of_single rfl _ _).trans hk)
  have er : dot_S5000x128_S128x128_S5000x128_1_0_0_1_n_n.rhsIdx (ix2 p c) ((contrEquiv1 dot_S5000x128_S128x128_S5000x128_1_0_0_1_n_n 128 rfl rfl).symm k) = ix2 k c :=
    funext fun a => Fin.ext (by
      match a with
      | ⟨0, _⟩ => exact (dot_S5000x128_S128x128_S5000x128_1_0_0_1_n_n.rhsIdx_val_of_single rfl _ _).trans hk
      | ⟨1, _⟩ => exact r1 _)
  rw [el, er]

/-- [4096,128] × [128,64]. -/
theorem matmul_4096x128_128x64 {φ₁ φ₂ : FTy} (lhs : FVec Ideal S4096x128 φ₁) (rhs : FVec Ideal S128x64 φ₂) (p : Fin 4096) (c : Fin 64) :
    FloatOps.matmul dot_S4096x128_S128x64_S4096x64_1_0_0_1_n_n none lhs rhs (constant S4096x64 .f32 0x00000000#32) (ix2 p c)
      = ∑ k : Fin 128, lhs (ix2 p k) * rhs (ix2 k c) := by
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have l0 : ∀ q : dot_S4096x128_S128x64_S4096x64_1_0_0_1_n_n.contr.Idx, (dot_S4096x128_S128x64_S4096x64_1_0_0_1_n_n.lhsIdx (ix2 p c) q 0).val = p.val := fun q => by
    unfold DotDims.lhsIdx
    rw [dif_neg (show ¬(0 : Fin S4096x128.rank) ∈ dot_S4096x128_S128x64_S4096x64_1_0_0_1_n_n.lhsBatch by decide),
      dif_pos (show (0 : Fin S4096x128.rank) ∈ dot_S4096x128_S128x64_S4096x64_1_0_0_1_n_n.lhsNonContracting by decide)]
    rfl
  have r1 : ∀ q : dot_S4096x128_S128x64_S4096x64_1_0_0_1_n_n.contr.Idx, (dot_S4096x128_S128x64_S4096x64_1_0_0_1_n_n.rhsIdx (ix2 p c) q 1).val = c.val := fun q => by
    unfold DotDims.rhsIdx
    rw [dif_neg (show ¬(1 : Fin S128x64.rank) ∈ dot_S4096x128_S128x64_S4096x64_1_0_0_1_n_n.rhsBatch by decide),
      dif_pos (show (1 : Fin S128x64.rank) ∈ dot_S4096x128_S128x64_S4096x64_1_0_0_1_n_n.rhsNonContracting by decide)]
    rfl
  have el : dot_S4096x128_S128x64_S4096x64_1_0_0_1_n_n.lhsIdx (ix2 p c) ((contrEquiv1 dot_S4096x128_S128x64_S4096x64_1_0_0_1_n_n 128 rfl rfl).symm k) = ix2 p k :=
    funext fun a => Fin.ext (by
      match a with
      | ⟨0, _⟩ => exact l0 _
      | ⟨1, _⟩ => exact (dot_S4096x128_S128x64_S4096x64_1_0_0_1_n_n.lhsIdx_val_of_single rfl _ _).trans hk)
  have er : dot_S4096x128_S128x64_S4096x64_1_0_0_1_n_n.rhsIdx (ix2 p c) ((contrEquiv1 dot_S4096x128_S128x64_S4096x64_1_0_0_1_n_n 128 rfl rfl).symm k) = ix2 k c :=
    funext fun a => Fin.ext (by
      match a with
      | ⟨0, _⟩ => exact (dot_S4096x128_S128x64_S4096x64_1_0_0_1_n_n.rhsIdx_val_of_single rfl _ _).trans hk
      | ⟨1, _⟩ => exact r1 _)
  rw [el, er]

/-- [4096,64] × [64,1]. -/
theorem matmul_4096x64_64x1 {φ₁ φ₂ : FTy} (lhs : FVec Ideal S4096x64 φ₁) (rhs : FVec Ideal S64x1 φ₂) (p : Fin 4096) (c : Fin 1) :
    FloatOps.matmul dot_S4096x64_S64x1_S4096x1_1_0_0_1_n_n none lhs rhs (constant S4096x1 .f32 0x00000000#32) (ix2 p c)
      = ∑ k : Fin 64, lhs (ix2 p k) * rhs (ix2 k c) := by
  rw [Ideal.matmul_constant_zero_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have l0 : ∀ q : dot_S4096x64_S64x1_S4096x1_1_0_0_1_n_n.contr.Idx, (dot_S4096x64_S64x1_S4096x1_1_0_0_1_n_n.lhsIdx (ix2 p c) q 0).val = p.val := fun q => by
    unfold DotDims.lhsIdx
    rw [dif_neg (show ¬(0 : Fin S4096x64.rank) ∈ dot_S4096x64_S64x1_S4096x1_1_0_0_1_n_n.lhsBatch by decide),
      dif_pos (show (0 : Fin S4096x64.rank) ∈ dot_S4096x64_S64x1_S4096x1_1_0_0_1_n_n.lhsNonContracting by decide)]
    rfl
  have r1 : ∀ q : dot_S4096x64_S64x1_S4096x1_1_0_0_1_n_n.contr.Idx, (dot_S4096x64_S64x1_S4096x1_1_0_0_1_n_n.rhsIdx (ix2 p c) q 1).val = c.val := fun q => by
    unfold DotDims.rhsIdx
    rw [dif_neg (show ¬(1 : Fin S64x1.rank) ∈ dot_S4096x64_S64x1_S4096x1_1_0_0_1_n_n.rhsBatch by decide),
      dif_pos (show (1 : Fin S64x1.rank) ∈ dot_S4096x64_S64x1_S4096x1_1_0_0_1_n_n.rhsNonContracting by decide)]
    rfl
  have el : dot_S4096x64_S64x1_S4096x1_1_0_0_1_n_n.lhsIdx (ix2 p c) ((contrEquiv1 dot_S4096x64_S64x1_S4096x1_1_0_0_1_n_n 64 rfl rfl).symm k) = ix2 p k :=
    funext fun a => Fin.ext (by
      match a with
      | ⟨0, _⟩ => exact l0 _
      | ⟨1, _⟩ => exact (dot_S4096x64_S64x1_S4096x1_1_0_0_1_n_n.lhsIdx_val_of_single rfl _ _).trans hk)
  have er : dot_S4096x64_S64x1_S4096x1_1_0_0_1_n_n.rhsIdx (ix2 p c) ((contrEquiv1 dot_S4096x64_S64x1_S4096x1_1_0_0_1_n_n 64 rfl rfl).symm k) = ix2 k c :=
    funext fun a => Fin.ext (by
      match a with
      | ⟨0, _⟩ => exact (dot_S4096x64_S64x1_S4096x1_1_0_0_1_n_n.rhsIdx_val_of_single rfl _ _).trans hk
      | ⟨1, _⟩ => exact r1 _)
  rw [el, er]

/-! ## Layout operations read at an index -/

/-- One column broadcast over many: a `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one element of a one-element vector. -/
theorem extractAt_zero_one {α : Type} (v : (⟨1, ![1]⟩ : Shape).Idx → α) (h : ∀ a, (![0] : Fin 1 → Nat) a < (⟨1, ![1]⟩ : Shape).size a) :
    extractAt ![0] v h = v (ix1 (0 : Fin 1)) := by
  unfold extractAt
  refine congrArg v (funext fun a => ?_)
  match a with
  | ⟨0, _⟩ => rfl

/-- The bias row: a `[64]` vector viewed `[1, 64]` and broadcast down the rows reads, at `(p, a)`, its element `a`. -/
theorem bias_apply {α : Type} {n : ℕ} (v : (⟨1, ![64]⟩ : Shape).Idx → α) (h : (⟨1, ![64]⟩ : Shape).ShapeCasts ⟨2, ![1, 64]⟩)
    (h' : (⟨2, ![1, 64]⟩ : Shape).Broadcasts ⟨2, ![n, 64]⟩) (p : Fin n) (a : Fin 64) :
    broadcastTo ⟨2, ![n, 64]⟩ (shapeCast ⟨2, ![1, 64]⟩ v h) h' (ix2 p a) = v (ix1 a) :=
  (broadcastTo_1b_ab_apply _ h' p a).trans (shapeCast_a_1a_apply v h 0 a)

/-! ## The matrix-product body -/

/-- What the second body leaves at (p, d): row `p` of its row block against column `d` of the weight block. -/
theorem out1_2_apply (x0 : Vec Ideal S5000x128 .f32) (x1 : Vec Ideal S128x128 .f32) (p : Fin 5000) (d : Fin 128) :
    Gen.out1_2 (F := Ideal) x0 x1 (ix2 p d) = rowDot (fun k => x0 (ix2 p k)) x1 d := by
  unfold Gen.out1_2
  rw [View.canon_unit_zero zero_off2]
  simp only [View.ld_unit_zero (S := S5000x128) zero_off2, View.ld_unit_zero (S := S128x128) zero_off2]
  unfold Gen.k1_pay1
  refine (matmul_5000x128_128x128 _ _ p d).trans ?_
  simp only [shapeCast_self]
  rfl

/-! ## The attention body -/

section Attention

variable (x0 x1 x2 : Vec Ideal S4096x128 .f32) (x3 : Vec Ideal S128x64 .f32) (x4 : Vec Ideal S64 .f32)
  (x5 x6 x7 : Vec Ideal S128x64 .f32) (x8 : Vec Ideal S64x1 .f32) (x9 : Vec Ideal S1 .f32)

/-- The body's last matrix product at (p, 0): the rectified pre-activations of edge `p` against the output column. -/
theorem pay5_apply (p : Fin 4096) :
    Gen.k0_pay5 (F := Ideal) x0 x1 x2 x3 x5 x6 x7 x4 x8 (ix2 p (0 : Fin 1))
      = ∑ a : Fin 64, max (rowPre ⟨x3, x4, x5, x6, x7, x8, x9⟩ (fun k => x0 (ix2 p k)) (fun k => x1 (ix2 p k)) (fun k => x2 (ix2 p k)) a)
          (Ideal.ofBits .f32 0x00000000#32) * x8 (ix2 a (0 : Fin 1)) := by
  unfold Gen.k0_pay5 Gen.k0_pay3 Gen.k0_pay4
  simp only [shapeCast_self]
  refine (matmul_4096x64_64x1 _ _ p 0).trans ?_
  refine Finset.sum_congr rfl fun a _ => ?_
  refine congrArg (· * x8 (ix2 a (0 : Fin 1))) ?_
  refine congrArg (max · (Ideal.ofBits .f32 0x00000000#32)) ?_
  unfold rowPre
  refine congrArg₂ (· + ·) (congrArg₂ (· + ·) (congrArg₂ (· + ·) (congrArg₂ (· + ·) ?_ ?_) ?_) ?_) ?_
  · exact matmul_4096x128_128x64 _ _ p a
  · exact bias_apply x4 _ _ p a
  · exact matmul_4096x128_128x64 _ _ p a
  · exact matmul_4096x128_128x64 _ _ p a
  · exact matmul_4096x128_128x64 _ _ p a

/-- The body's logistic at (p, 0): the attention weight of edge `p`. -/
theorem pay1_apply (p : Fin 4096) :
    Gen.k0_pay1 (F := Ideal) (Gen.k0_pay5 x0 x1 x2 x3 x5 x6 x7 x4 x8) x9 (ix2 p (0 : Fin 1))
      = rowAlpha ⟨x3, x4, x5, x6, x7, x8, x9⟩ (fun k => x0 (ix2 p k)) (fun k => x1 (ix2 p k)) (fun k => x2 (ix2 p k)) := by
  unfold Gen.k0_pay1 rowAlpha rowLogit
  show Ideal.logistic (Gen.k0_pay5 (F := Ideal) x0 x1 x2 x3 x5 x6 x7 x4 x8 (ix2 p (0 : Fin 1)) + extractAt ![0] x9 _) = _
  exact congrArg Ideal.logistic (congrArg₂ (· + ·) (pay5_apply x0 x1 x2 x3 x4 x5 x6 x7 x8 x9 p) (extractAt_zero_one x9 _))

/-- What the first body leaves in its second output at (p, 0): the attention weight of edge `p`. -/
theorem out0_11_apply (p : Fin 4096) (z : Fin 1) :
    Gen.out0_11 (F := Ideal) x0 x1 x2 x3 x4 x5 x6 x7 x8 x9 (ix2 p z)
      = rowAlpha ⟨x3, x4, x5, x6, x7, x8, x9⟩ (fun k => x0 (ix2 p k)) (fun k => x1 (ix2 p k)) (fun k => x2 (ix2 p k)) := by
  obtain rfl : z = 0 := Subsingleton.elim _ _
  unfold Gen.out0_11
  rw [View.canon_unit_zero zero_off2]
  simp only [View.ld_unit_zero (S := S4096x128) zero_off2, View.ld_unit_zero (S := S128x64) zero_off2,
    View.ld_unit_zero (S := S64x1) zero_off2, View.ld_unit_zero (S := S64) zero_off1, View.ld_unit_zero (S := S1) zero_off1]
  exact pay1_apply x0 x1 x2 x3 x4 x5 x6 x7 x8 x9 p

/-- What the first body leaves in its first output at (p, d): the attention weight of edge `p` times hs[p,d]·hr[p,d]. -/
theorem out0_10_apply (p : Fin 4096) (d : Fin 128) :
    Gen.out0_10 (F := Ideal) x0 x1 x2 x3 x4 x5 x6 x7 x8 x9 (ix2 p d)
      = rowMsg ⟨x3, x4, x5, x6, x7, x8, x9⟩ (fun k => x0 (ix2 p k)) (fun k => x1 (ix2 p k)) (fun k => x2 (ix2 p k)) d := by
  unfold Gen.out0_10
  rw [View.canon_unit_zero zero_off2]
  simp only [View.ld_unit_zero (S := S4096x128) zero_off2, View.ld_unit_zero (S := S128x64) zero_off2,
    View.ld_unit_zero (S := S64x1) zero_off2, View.ld_unit_zero (S := S64) zero_off1, View.ld_unit_zero (S := S1) zero_off1]
  unfold Gen.k0_pay2 Gen.k0_pay3 Gen.k0_pay4 rowMsg
  simp only [shapeCast_self]
  show (broadcastTo S4096x128 (Gen.k0_pay1 (F := Ideal) (Gen.k0_pay5 x0 x1 x2 x3 x5 x6 x7 x4 x8) x9) _ (ix2 p d) : EReal)
      * (x0 (ix2 p d) * x1 (ix2 p d)) = _
  exact congrArg (· * (x0 (ix2 p d) * x1 (ix2 p d))) ((broadcastTo_a1_ab_apply _ _ p d).trans (pay1_apply x0 x1 x2 x3 x4 x5 x6 x7 x8 x9 p))

end Attention

end Cert.KernelIdeal.Rows

end
-- ==== Proof.KernelArrays.lean ====
/-
  From blocks to arrays. Region 0 runs the attention MLP on 123 blocks of 4096 edges; block `t` of each output is
  written back to rows 4096·t … 4096·t + 4095, and those row ranges tile the 503808 padded rows. So after the region
  its two output arrays are, row by row, the per-edge functions of Spec applied to the rows of the three padded row
  operands and the weights as the region finds them. Region 1 multiplies 40 blocks of 5000 rows by the 128×128
  weight; its output array is, row by row, the row-times-matrix sums.
-/
import proofs.«141558_j82678120448824_1_alg».proof.Proof.Gen.KernelIdeal.Frame
import proofs.«141558_j82678120448824_1_alg».proof.Proof.Spec
import proofs.«141558_j82678120448824_1_alg».proof.Proof.KernelRows
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Spec's functions respect equality of every argument. -/
theorem rowMsg_congr {W W' : Weights} {a b c a' b' c' : Fin 128 → EReal} {d d' : Fin 128}
    (hW : W = W') (ha : a = a') (hb : b = b') (hc : c = c') (hd : d = d') : rowMsg W a b c d = rowMsg W' a' b' c' d' := by
  subst hW ha hb hc hd; rfl
theorem rowAlpha_congr {W W' : Weights} {a b c a' b' c' : Fin 128 → EReal}
    (hW : W = W') (ha : a = a') (hb : b = b') (hc : c = c') : rowAlpha W a b c = rowAlpha W' a' b' c' := by
  subst hW ha hb hc; rfl
theorem rowDot_congr {x x' : Fin 128 → EReal} {w w' : (⟨2, ![128, 128]⟩ : Shape).Idx → EReal} {d d' : Fin 128}
    (hx : x = x') (hw : w = w') (hd : d = d') : rowDot x w d = rowDot x' w' d' := by
  subst hx hw hd; rfl

/-! ## Region 0 -/

/-- The weights as region 0 finds them. -/
def wts (c : Dev nD) : Weights where
  Ws := V c main_arg8
  b := V c main_arg9
  Wr := V c main_arg10
  Wq := V c main_arg11
  Wqr := V c main_arg12
  Wa := V c main_arg13
  ba := V c main_arg14

/-- Row `r` of the three padded row operands as region 0 finds them. -/
def hsRow (c : Dev nD) (r : Fin 503808) : Fin 128 → EReal := fun k => V c main_v29 (ix2 r k)
def hrRow (c : Dev nD) (r : Fin 503808) : Fin 128 → EReal := fun k => V c main_v30 (ix2 r k)
def hqRow (c : Dev nD) (r : Fin 503808) : Fin 128 → EReal := fun k => V c main_v31 (ix2 r k)

/-- Region 0's message array, as one function of what the region finds. -/
def msgArr (c : Dev nD) : S503808x128.Idx → EReal := fun i =>
  rowMsg (wts V c) (hsRow V c ⟨(i 0).val, idx2_lt0 i⟩) (hrRow V c ⟨(i 0).val, idx2_lt0 i⟩) (hqRow V c ⟨(i 0).val, idx2_lt0 i⟩) ⟨(i 1).val, idx2_lt1 i⟩

/-- Region 0's attention array, as one function of what the region finds. -/
def alphaArr (c : Dev nD) : S503808x1.Idx → EReal := fun i =>
  rowAlpha (wts V c) (hsRow V c ⟨(i 0).val, idx2_lt0 i⟩) (hrRow V c ⟨(i 0).val, idx2_lt0 i⟩) (hqRow V c ⟨(i 0).val, idx2_lt0 i⟩)

/-- The printed index maps over the grid: block `t` of every row operand and of both outputs starts at row 4096·t and
    column 0; every weight window is its whole array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem idx_facts0w : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0 :=
  (by decide +kernel : ∀ t : Fin grid0.N, _)

theorem N0 : cfg0.N = 123 := N_0
theorem wblk3 (c : Dev nD) (t : Fin cfg0.N) : iblk0 V c 3 t = V c main_arg8 := by
  obtain ⟨e0, e1, -⟩ := idx_facts0w t
  funext y
  show V c main_arg8 (((cfg0.win 3).blk t).view.emb y) = V c main_arg8 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

theorem wblk4 (c : Dev nD) (t : Fin cfg0.N) : iblk0 V c 4 t = V c main_arg9 := by
  obtain ⟨-, -, e0, -⟩ := idx_facts0w t
  funext y
  show V c main_arg9 (((cfg0.win 4).blk t).view.emb y) = V c main_arg9 y
  refine congrArg _ (funext fun a => Fin.ext ?_)
  match a with
  | ⟨0, _⟩ => show win0_4.index t (0 : Fin 1) * 64 + 1 * (y 0).val = (y 0).val; omega

theorem wblk5 (c : Dev nD) (t : Fin cfg0.N) : iblk0 V c 5 t = V c main_arg10 := by
  obtain ⟨-, -, -, e0, e1, -⟩ := idx_facts0w t
  funext y
  show V c main_arg10 (((cfg0.win 5).blk t).view.emb y) = V c main_arg10 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem wblk6 (c : Dev nD) (t : Fin cfg0.N) : iblk0 V c 6 t = V c main_arg11 := by
  obtain ⟨-, -, -, -, -, e0, e1, -⟩ := idx_facts0w t
  funext y
  show V c main_arg11 (((cfg0.win 6).blk t).view.emb y) = V c main_arg11 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

theorem wblk7 (c : Dev nD) (t : Fin cfg0.N) : iblk0 V c 7 t = V c main_arg12 := by
  obtain ⟨-, -, -, -, -, -, -, e0, e1, -⟩ := idx_facts0w t
  funext y
  show V c main_arg12 (((cfg0.win 7).blk t).view.emb y) = V c main_arg12 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 64 + 1 * (y 1).val = (y 1).val; omega

theorem wblk8 (c : Dev nD) (t : Fin cfg0.N) : iblk0 V c 8 t = V c main_arg13 := by
  obtain ⟨-, -, -, -, -, -, -, -, -, e0, e1, -⟩ := idx_facts0w t
  funext y
  show V c main_arg13 (((cfg0.win 8).blk t).view.emb y) = V c main_arg13 y
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 1 + 1 * (y 1).val = (y 1).val; omega

theorem wblk9 (c : Dev nD) (t : Fin cfg0.N) : iblk0 V c 9 t = V c main_arg14 := by
  obtain ⟨-, -, -, -, -, -, -, -, -, -, -, e0⟩ := idx_facts0w t
  funext y
  show V c main_arg14 (((cfg0.win 9).blk t).view.emb y) = V c main_arg14 y
  refine congrArg _ (funext fun a => Fin.ext ?_)
  match a with
  | ⟨0, _⟩ => show win0_9.index t (0 : Fin 1) * 1 + 1 * (y 0).val = (y 0).val; omega

/-- The array row that row `p` of block `t` is. -/
def grow (t : Fin cfg0.N) (p : Fin 4096) : Fin 503808 :=
  ⟨t.val * 4096 + p.val, by have h : t.val < 123 := lt_of_lt_of_eq t.isLt N0; have := p.isLt; omega⟩

/-- Row `p` of a row operand's block at point `t` is row `4096·t + p` of the operand. -/
theorem rowblk0 (c : Dev nD) (t : Fin cfg0.N) (p : Fin 4096) :
    (fun k : Fin 128 => iblk0 V c 0 t (ix2 p k)) = hsRow V c (grow t p) := by
  obtain ⟨e0, e1, -⟩ := idx_facts0 t
  funext k
  show V c main_v29 (((cfg0.win 0).blk t).view.emb (ix2 p k)) = V c main_v29 (ix2 (grow t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * k.val = k.val; omega

theorem rowblk1 (c : Dev nD) (t : Fin cfg0.N) (p : Fin 4096) :
    (fun k : Fin 128 => iblk0 V c 1 t (ix2 p k)) = hrRow V c (grow t p) := by
  obtain ⟨-, -, e0, e1, -⟩ := idx_facts0 t
  funext k
  show V c main_v30 (((cfg0.win 1).blk t).view.emb (ix2 p k)) = V c main_v30 (ix2 (grow t p) k)
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 128 + 1 * k.val = k.val; omega

theorem rowblk2 (c : Dev nD) (t : Fin cfg0.N) (p : Fin 4096) :
    (fun k : Fin 128 => iblk0 V c 2 t (ix2 p k)) = hqRow V c (grow t p) := by
  obtain ⟨-, -, -, -, e0, e1, -⟩ := idx_facts0 t
  funext k
  show V c main_v31 (((cfg0.win 2).blk t).view.emb (ix2 p k)) = V c main_v31 (ix2 (grow t p) k)
  refine congrArg _ (funext fun a => Fin.ext ?_)
  match a with
  | ⟨0, _⟩ => show win0_2.index t (0 : Fin 2) * 4096 + 1 * p.val = t.val * 4096 + p.val; omega
  | ⟨1, _⟩ => show win0_2.index t (1 : Fin 2) * 128 + 1 * k.val = k.val; omega

/-- What point `t` writes back of the message output is block `t` of `msgArr`. -/
theorem flushed10_eq (c : Dev nD) (t : Fin cfg0.N) :
    (dat0 V c).flushed 10 t = ((cfg0.win 10).blk t).view.read (Elt Ideal) (msgArr V c) := by
  show (cfg0.win 10).cut (grid0.coords t) ((dat0 V c).after 10 t) = _
  rw [after0_10]
  obtain ⟨-, -, -, -, -, -, e0, e1, -⟩ := idx_facts0 t
  funext j
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) j
    = msgArr V c (((cfg0.win 10).blk t).view.emb j)
  obtain ⟨p, d, rfl⟩ : ∃ (p : Fin 4096) (d : Fin 128), j = ix2 p d := ⟨j 0, j 1, @eq_ix2 4096 128 j⟩
  refine (Rows.out0_10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p d).trans ?_
  have hr : ∀ h, (⟨((((cfg0.win 10).blk t).view.emb (ix2 p d)) 0).val, h⟩ : Fin 503808) = grow t p := fun h => Fin.ext (by
    show win0_10.index t (0 : Fin 2) * 4096 + 1 * p.val = t.val * 4096 + p.val; omega)
  have hd : ∀ h, d = (⟨((((cfg0.win 10).blk t).view.emb (ix2 p d)) 1).val, h⟩ : Fin 128) := fun h => Fin.ext (by
    show d.val = win0_10.index t (1 : Fin 2) * 128 + 1 * d.val; omega)
  unfold msgArr
  refine rowMsg_congr ?_ ((rowblk0 V c t p).trans (congrArg _ (hr _).symm)) ((rowblk1 V c t p).trans (congrArg _ (hr _).symm))
    ((rowblk2 V c t p).trans (congrArg _ (hr _).symm)) (hd _)
  unfold wts
  rw [wblk3, wblk4, wblk5, wblk6, wblk7, wblk8, wblk9]

/-- What point `t` writes back of the attention output is block `t` of `alphaArr`. -/
theorem flushed11_eq (c : Dev nD) (t : Fin cfg0.N) :
    (dat0 V c).flushed 11 t = ((cfg0.win 11).blk t).view.read (Elt Ideal) (alphaArr V c) := by
  show (cfg0.win 11).cut (grid0.coords t) ((dat0 V c).after 11 t) = _
  rw [after0_11]
  obtain ⟨-, -, -, -, -, -, -, -, e0, e1⟩ := idx_facts0 t
  funext j
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) j
    = alphaArr V c (((cfg0.win 11).blk t).view.emb j)
  obtain ⟨p, z, rfl⟩ : ∃ (p : Fin 4096) (z : Fin 1), j = ix2 p z := ⟨j 0, j 1, @eq_ix2 4096 1 j⟩
  refine (Rows.out0_11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p z).trans ?_
  have hr : ∀ h, (⟨((((cfg0.win 11).blk t).view.emb (ix2 p z)) 0).val, h⟩ : Fin 503808) = grow t p := fun h => Fin.ext (by
    show win0_11.index t (0 : Fin 2) * 4096 + 1 * p.val = t.val * 4096 + p.val; omega)
  unfold alphaArr
  refine rowAlpha_congr ?_ ((rowblk0 V c t p).trans (congrArg _ (hr _).symm)) ((rowblk1 V c t p).trans (congrArg _ (hr _).symm))
    ((rowblk2 V c t p).trans (congrArg _ (hr _).symm))
  unfold wts
  rw [wblk3, wblk4, wblk5, wblk6, wblk7, wblk8, wblk9]

/-- An index of the message array is in point `t`'s block iff each coordinate is in the block's range on its axis. -/
theorem mem_blk10 (t : Fin cfg0.N) (i : S503808x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v32_0).slice (win0_10.rect t)).set ↔ _
  rw [View.set_slice_whole, Rect.mem_set_unit]
  exact Iff.rfl
theorem mem_blk11 (t : Fin cfg0.N) (i : S503808x1.Idx) :
    i ∈ ((cfg0.win 11).blk t).view.set ↔ ∀ a : Fin 2, win0_11.index t a * S4096x1.size a ≤ (i a).val ∧ (i a).val < win0_11.index t a * S4096x1.size a + S4096x1.size a := by
  show i ∈ ((View.whole main_v32_1).slice (win0_11.rect t)).set ↔ _
  rw [View.set_slice_whole, Rect.mem_set_unit]
  exact Iff.rfl

/-- The point whose block holds row `r`. -/
def ptOf (r : Nat) (h : r < 503808) : Fin cfg0.N := ⟨r / 4096, by rw [N0]; omega⟩

/-- After region 0 the message array is `msgArr`: the 123 blocks tile the 503808 rows. -/
theorem final10 (c : Dev nD) : (dat0 V c).arrAt 10 cfg0.N = msgArr V c :=
  (dat0 V c).arrAt_eq_of_cover 10 (msgArr V c) (fun t _ => flushed10_eq V c t) fun i => by
    have hi0 : (i 0).val < 503808 := (i 0).isLt
    have hi1 : (i 1).val < 128 := (i 1).isLt
    refine ⟨ptOf (i 0).val hi0, flush0_10 _, ?_⟩
    rw [mem_blk10]
    obtain ⟨-, -, -, -, -, -, e0, e1, -⟩ := idx_facts0 (ptOf (i 0).val hi0)
    have hv : (ptOf (i 0).val hi0).val = (i 0).val / 4096 := rfl
    intro a
    match a with
    | ⟨0, _⟩ => show win0_10.index (ptOf (i 0).val hi0) (0 : Fin 2) * 4096 ≤ (i 0).val ∧ (i 0).val < win0_10.index (ptOf (i 0).val hi0) (0 : Fin 2) * 4096 + 4096; omega
    | ⟨1, _⟩ => show win0_10.index (ptOf (i 0).val hi0) (1 : Fin 2) * 128 ≤ (i 1).val ∧ (i 1).val < win0_10.index (ptOf (i 0).val hi0) (1 : Fin 2) * 128 + 128; omega

/-- After region 0 the attention array is `alphaArr`. -/
theorem final11 (c : Dev nD) : (dat0 V c).arrAt 11 cfg0.N = alphaArr V c :=
  (dat0 V c).arrAt_eq_of_cover 11 (alphaArr V c) (fun t _ => flushed11_eq V c t) fun i => by
    have hi0 : (i 0).val < 503808 := (i 0).isLt
    have hi1 : (i 1).val < 1 := (i 1).isLt
    refine ⟨ptOf (i 0).val hi0, flush0_11 _, ?_⟩
    rw [mem_blk11]
    obtain ⟨-, -, -, -, -, -, -, -, e0, e1⟩ := idx_facts0 (ptOf (i 0).val hi0)
    have hv : (ptOf (i 0).val hi0).val = (i 0).val / 4096 := rfl
    intro a
    match a with
    | ⟨0, _⟩ => show win0_11.index (ptOf (i 0).val hi0) (0 : Fin 2) * 4096 ≤ (i 0).val ∧ (i 0).val < win0_11.index (ptOf (i 0).val hi0) (0 : Fin 2) * 4096 + 4096; omega
    | ⟨1, _⟩ => show win0_11.index (ptOf (i 0).val hi0) (1 : Fin 2) * 1 ≤ (i 1).val ∧ (i 1).val < win0_11.index (ptOf (i 0).val hi0) (1 : Fin 2) * 1 + 1; omega

/-! ## Region 1 -/

/-- Row `n` of region 1's row operand as the region finds it. -/
def aggRow (c : Dev nD) (n : Fin 200000) : Fin 128 → EReal := fun k => V c main_v37 (ix2 n k)

/-- Region 1's output array, as one function of what the region finds. -/
def hidArr (c : Dev nD) : S200000x128.Idx → EReal := fun i =>
  rowDot (aggRow V c ⟨(i 0).val, idx2_lt0 i⟩) (V c main_arg15) ⟨(i 1).val, idx2_lt1 i⟩

/-- The printed index maps over region 1's grid: block `t` of the row operand and of the output starts at row 5000·t;
    the weight window is its whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N1 : cfg1.N = 40 := N_1

def grow1 (t : Fin cfg1.N) (p : Fin 5000) : Fin 200000 :=
  ⟨t.val * 5000 + p.val, by have h : t.val < 40 := lt_of_lt_of_eq t.isLt N1; have := p.isLt; omega⟩

theorem wblk1_1 (c : Dev nD) (t : Fin cfg1.N) : iblk1 V c 1 t = V c main_arg15 := by
  obtain ⟨-, -, e0, e1, -⟩ := idx_facts1 t
  funext y
  show V c main_arg15 (((cfg1.win 1).blk t).view.emb y) = V c main_arg15 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem rowblk1_0 (c : Dev nD) (t : Fin cfg1.N) (p : Fin 5000) :
    (fun k : Fin 128 => iblk1 V c 0 t (ix2 p k)) = aggRow V c (grow1 t p) := by
  obtain ⟨e0, e1, -⟩ := idx_facts1 t
  funext k
  show V c main_v37 (((cfg1.win 0).blk t).view.emb (ix2 p k)) = V c main_v37 (ix2 (grow1 t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- What point `t` of region 1 writes back is block `t` of `hidArr`. -/
theorem flushed1_2_eq (c : Dev nD) (t : Fin cfg1.N) :
    (dat1 V c).flushed 2 t = ((cfg1.win 2).blk t).view.read (Elt Ideal) (hidArr V c) := by
  show (cfg1.win 2).cut (grid1.coords t) ((dat1 V c).after 2 t) = _
  rw [after1_2]
  obtain ⟨-, -, -, -, e0, e1⟩ := idx_facts1 t
  funext j
  show out1_2 (iblk1 V c 0 t) (iblk1 V c 1 t) j = hidArr V c (((cfg1.win 2).blk t).view.emb j)
  obtain ⟨p, d, rfl⟩ : ∃ (p : Fin 5000) (d : Fin 128), j = ix2 p d := ⟨j 0, j 1, @eq_ix2 5000 128 j⟩
  refine (Rows.out1_2_apply (iblk1 V c 0 t) (iblk1 V c 1 t) p d).trans ?_
  have hr : ∀ h, (⟨((((cfg1.win 2).blk t).view.emb (ix2 p d)) 0).val, h⟩ : Fin 200000) = grow1 t p := fun h => Fin.ext (by
    show win1_2.index t (0 : Fin 2) * 5000 + 1 * p.val = t.val * 5000 + p.val; omega)
  have hd : ∀ h, d = (⟨((((cfg1.win 2).blk t).view.emb (ix2 p d)) 1).val, h⟩ : Fin 128) := fun h => Fin.ext (by
    show d.val = win1_2.index t (1 : Fin 2) * 128 + 1 * d.val; omega)
  unfold hidArr
  exact rowDot_congr ((rowblk1_0 V c t p).trans (congrArg _ (hr _).symm)) (wblk1_1 V c t) (hd _)

theorem mem_blk1_2 (t : Fin cfg1.N) (i : S200000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v38).slice (win1_2.rect t)).set ↔ _
  rw [View.set_slice_whole, Rect.mem_set_unit]
  exact Iff.rfl

def ptOf1 (r : Nat) (h : r < 200000) : Fin cfg1.N := ⟨r / 5000, by rw [N1]; omega⟩

/-- After region 1 its output array is `hidArr`: the 40 blocks tile the 200000 rows. -/
theorem final1_2 (c : Dev nD) : (dat1 V c).arrAt 2 cfg1.N = hidArr V c :=
  (dat1 V c).arrAt_eq_of_cover 2 (hidArr V c) (fun t _ => flushed1_2_eq V c t) fun i => by
    have hi0 : (i 0).val < 200000 := (i 0).isLt
    have hi1 : (i 1).val < 128 := (i 1).isLt
    refine ⟨ptOf1 (i 0).val hi0, flush1_2 _, ?_⟩
    rw [mem_blk1_2]
    obtain ⟨-, -, -, -, e0, e1⟩ := idx_facts1 (ptOf1 (i 0).val hi0)
    have hv : (ptOf1 (i 0).val hi0).val = (i 0).val / 5000 := rfl
    intro a
    match a with
    | ⟨0, _⟩ => show win1_2.index (ptOf1 (i 0).val hi0) (0 : Fin 2) * 5000 ≤ (i 0).val ∧ (i 0).val < win1_2.index (ptOf1 (i 0).val hi0) (0 : Fin 2) * 5000 + 5000; omega
    | ⟨1, _⟩ => show win1_2.index (ptOf1 (i 0).val hi0) (1 : Fin 2) * 128 ≤ (i 1).val ∧ (i 1).val < win1_2.index (ptOf1 (i 0).val hi0) (1 : Fin 2) * 128 + 128; omega

end Cert.KernelIdeal.Arrays

end
-- ==== Proof.RefRows.lean ====
/-
  The reference program's host operations, read one row at a time.

  Each of the three results below is a stage of the reference read at an index `ix2 e a` and identified with the
  per-edge mathematics of the specification: the attention weight of edge `e`, its message at feature `d`, and
  row `n` of the aggregated messages against the output matrix. The gathered rows (of hidden, of the relation
  embeddings, of the query embeddings) and the scatter stay as the reference has them; only the arithmetic between
  them is read.
-/
import proofs.«141558_j82678120448824_1_alg».proof.Proof.Gen.ReferenceIdeal.Read
import proofs.«141558_j82678120448824_1_alg».proof.Proof.Spec
import Idealize.ShloMosaic.Lib.IdealHost

noncomputable section

namespace Cert.ReferenceIdeal.Rows

open Cert.ReferenceIdeal Cert.ReferenceIdeal.Gen Idealize.ShloMosaic Idealize.ShloMosaic.ValueIdx Cert.Attn

variable (x2 : (⟨S32x128, .f32⟩ : BufTy).Contents (Elt Ideal)) (x3 : (⟨S401x128, .f32⟩ : BufTy).Contents (Elt Ideal))
  (x4 : (⟨S200000x128, .f32⟩ : BufTy).Contents (Elt Ideal)) (x5 : (⟨S500000x6, .i32⟩ : BufTy).Contents (Elt Ideal))
  (x8 : (⟨S128x64, .f32⟩ : BufTy).Contents (Elt Ideal)) (x9 : (⟨S64, .f32⟩ : BufTy).Contents (Elt Ideal))
  (x10 x11 x12 : (⟨S128x64, .f32⟩ : BufTy).Contents (Elt Ideal)) (x13 : (⟨S64x1, .f32⟩ : BufTy).Contents (Elt Ideal))
  (x14 : (⟨S1, .f32⟩ : BufTy).Contents (Elt Ideal)) (x15 : (⟨S128x128, .f32⟩ : BufTy).Contents (Elt Ideal))

/-! ## The last matrix product: a row of the aggregated messages against the output matrix -/

/-- The left operand of the last product at row `n`, column `d`, summand `k`: row `n`, column `k`. -/
theorem lidx_v57 (n : Fin 200000) (d k : Fin 128) : Read.lidx_main_v57 (ix2 n d) k = ix2 n k :=
  funext fun a => Fin.ext (by match a with | ⟨0, _⟩ => rfl | ⟨1, _⟩ => rfl)

/-- The right operand of the last product at row `n`, column `d`, summand `k`: row `k`, column `d`. -/
theorem ridx_v57 (n : Fin 200000) (d k : Fin 128) : Read.ridx_main_v57 (ix2 n d) k = ix2 k d :=
  funext fun a => Fin.ext (by match a with | ⟨0, _⟩ => rfl | ⟨1, _⟩ => rfl)

/-- The new hidden state at node `n`, feature `d`, is row `n` of the aggregated messages against column `d` of
    the output matrix. -/
theorem hidden_apply (n : Fin 200000) (d : Fin 128) :
    Read.val_main_v57 (F := Ideal) x2 x3 x4 x5 x8 x9 x10 x11 x12 x13 x14 x15 (ix2 n d)
      = rowDot (fun k => Read.val_main_v56 (F := Ideal) x2 x3 x4 x5 x8 x9 x10 x11 x12 x13 x14 (ix2 n k)) x15 d := by
  rw [Read.val_main_v57_apply]
  unfold rowDot
  refine Finset.sum_congr rfl fun k _ => ?_
  rw [lidx_v57, ridx_v57]

/-! ## The attention MLP of one edge -/

/-- The left operand of the product of the source rows with `Ws`, at edge `e`, unit `a`, summand `k`: row `e`, column `k`. -/
theorem lidx_v29 (e : Fin 500000) (a : Fin 64) (k : Fin 128) :
    Read.lidx_main_v29 (ix2 e a) k = ix2 e k :=
  funext fun a => Fin.ext (by match a with | ⟨0, _⟩ => rfl | ⟨1, _⟩ => rfl)
/-- The right operand of the product of the source rows with `Ws`, at edge `e`, unit `a`, summand `k`: row `k`, column `a`. -/
theorem ridx_v29 (e : Fin 500000) (a : Fin 64) (k : Fin 128) :
    Read.ridx_main_v29 (ix2 e a) k = ix2 k a :=
  funext fun a => Fin.ext (by match a with | ⟨0, _⟩ => rfl | ⟨1, _⟩ => rfl)
/-- The left operand of the product of the relation rows with `Wr`, at edge `e`, unit `a`, summand `k`: row `e`, column `k`. -/
theorem lidx_v33 (e : Fin 500000) (a : Fin 64) (k : Fin 128) :
    Read.lidx_main_v33 (ix2 e a) k = ix2 e k :=
  funext fun a => Fin.ext (by match a with | ⟨0, _⟩ => rfl | ⟨1, _⟩ => rfl)
/-- The right operand of the product of the relation rows with `Wr`, at edge `e`, unit `a`, summand `k`: row `k`, column `a`. -/
theorem ridx_v33 (e : Fin 500000) (a : Fin 64) (k : Fin 128) :
    Read.ridx_main_v33 (ix2 e a) k = ix2 k a :=
  funext fun a => Fin.ext (by match a with | ⟨0, _⟩ => rfl | ⟨1, _⟩ => rfl)
/-- The left operand of the product of the query rows with `Wq`, at edge `e`, unit `a`, summand `k`: row `e`, column `k`. -/
theorem lidx_v35 (e : Fin 500000) (a : Fin 64) (k : Fin 128) :
    Read.lidx_main_v35 (ix2 e a) k = ix2 e k :=
  funext fun a => Fin.ext (by match a with | ⟨0, _⟩ => rfl | ⟨1, _⟩ => rfl)
/-- The right operand of the product of the query rows with `Wq`, at edge `e`, unit `a`, summand `k`: row `k`, column `a`. -/
theorem ridx_v35 (e : Fin 500000) (a : Fin 64) (k : Fin 128) :
    Read.ridx_main_v35 (ix2 e a) k = ix2 k a :=
  funext fun a => Fin.ext (by match a with | ⟨0, _⟩ => rfl | ⟨1, _⟩ => rfl)
/-- The left operand of the product of the relation-times-query rows with `Wqr`, at edge `e`, unit `a`, summand `k`: row `e`, column `k`. -/
theorem lidx_v38 (e : Fin 500000) (a : Fin 64) (k : Fin 128) :
    Read.lidx_main_v38 (ix2 e a) k = ix2 e k :=
  funext fun a => Fin.ext (by match a with | ⟨0, _⟩ => rfl | ⟨1, _⟩ => rfl)
/-- The right operand of the product of the relation-times-query rows with `Wqr`, at edge `e`, unit `a`, summand `k`: row `k`, column `a`. -/
theorem ridx_v38 (e : Fin 500000) (a : Fin 64) (k : Fin 128) :
    Read.ridx_main_v38 (ix2 e a) k = ix2 k a :=
  funext fun a => Fin.ext (by match a with | ⟨0, _⟩ => rfl | ⟨1, _⟩ => rfl)
/-- The bias row broadcast over the edges, read at edge `e`, unit `a`, is the bias at `a`. -/
theorem idx_v30 (e : Fin 500000) (a : Fin 64) : Read.idx_main_v30 (Read.idx_main_v31 (ix2 e a)) = ix1 a :=
  funext fun d => Fin.ext (by match d with | ⟨0, _⟩ => rfl)

/-- The pre-activation of edge `e` at hidden unit `a`. -/
theorem pre_apply (e : Fin 500000) (a : Fin 64) :
    Read.val_main_v39 (F := Ideal) x2 x3 x4 x5 x8 x9 x10 x11 x12 (ix2 e a)
      = rowPre ⟨x8, x9, x10, x11, x12, x13, x14⟩
        (fun k => Read.val_main_v12 (F := Ideal) x4 x5 (ix2 e k))
        (fun k => Read.val_main_v19 (F := Ideal) x3 x5 (ix2 e k))
        (fun k => Read.val_main_v28 (F := Ideal) x2 x5 (ix2 e k)) a := by
  rw [Read.val_main_v39_apply, Read.val_main_v36_apply, Read.val_main_v34_apply, Read.val_main_v32_apply,
    Read.val_main_v29_apply, Read.val_main_v31_apply, Read.val_main_v30_apply, Read.val_main_v33_apply,
    Read.val_main_v35_apply, Read.val_main_v38_apply]
  simp only [Read.val_main_v37_apply, lidx_v29, ridx_v29, lidx_v33, ridx_v33, lidx_v35, ridx_v35, lidx_v38, ridx_v38,
    idx_v30, Ideal.addf_def, Ideal.mulf_def]
  rfl

/-- The left operand of the output product at edge `e`, summand `a`: row `e`, unit `a`. -/
theorem lidx_v41 (e : Fin 500000) (z : Fin 1) (a : Fin 64) : Read.lidx_main_v41 (ix2 e z) a = ix2 e a :=
  funext fun c => Fin.ext (by match c with | ⟨0, _⟩ => rfl | ⟨1, _⟩ => rfl)

/-- The right operand of the output product at edge `e`, summand `a`: row `a` of the one output column. -/
theorem ridx_v41 (e : Fin 500000) (z : Fin 1) (a : Fin 64) : Read.ridx_main_v41 (ix2 e z) a = ix2 a (0 : Fin 1) :=
  funext fun c => Fin.ext (by
    match c with
    | ⟨0, _⟩ => rfl
    | ⟨1, _⟩ => exact congrArg Fin.val (Fin.fin_one_eq_zero z))

/-- The output bias broadcast over the edges is the bias's one element. -/
theorem idx_v42 (e : Fin 500000) (z : Fin 1) : Read.idx_main_v42 (Read.idx_main_v43 (ix2 e z)) = ix1 (0 : Fin 1) :=
  funext fun d => Fin.ext (by match d with | ⟨0, _⟩ => rfl)

/-- The attention weight of edge `e`: the reference spells the logistic function as `1 / (1 + exp (-x))`, with the
    literal one, which is how the extended reals' logistic function is defined. -/
theorem alpha_apply (e : Fin 500000) (z : Fin 1) :
    Read.val_main_v50 (F := Ideal) x2 x3 x4 x5 x8 x9 x10 x11 x12 x13 x14 (ix2 e z)
      = rowAlpha ⟨x8, x9, x10, x11, x12, x13, x14⟩
        (fun k => Read.val_main_v12 (F := Ideal) x4 x5 (ix2 e k))
        (fun k => Read.val_main_v19 (F := Ideal) x3 x5 (ix2 e k))
        (fun k => Read.val_main_v28 (F := Ideal) x2 x5 (ix2 e k)) := by
  rw [Read.val_main_v50_apply, Read.val_main_v49_apply, Read.val_main_cst_7_apply, Read.val_main_v48_apply,
    Read.val_main_v47_apply, Read.val_main_cst_6_apply, Read.val_main_v46_apply, Read.val_main_v45_apply,
    Read.val_main_v44_apply, Read.val_main_v41_apply, Read.val_main_v43_apply, Read.val_main_v42_apply]
  simp only [Read.val_main_v40_apply, Read.val_main_call0_v0_apply, Read.val_main_call0_cst_apply, lidx_v41, ridx_v41,
    idx_v42, pre_apply x2 x3 x4 x5 x8 x9 x10 x11 x12 x13 x14, Ideal.hostDivf_def, Ideal.addf_def, Ideal.mulf_def,
    Ideal.hostUnary_exp_def, Ideal.hostNegf_def, Ideal.negf_def, Ideal.maximumf_def, Ideal.ofBits_def,
    Ideal.ofBits_one_f32]
  rfl

/-! ## The message of one edge -/

/-- The attention weight broadcast along the features, read at edge `e`, feature `d`, is the weight of edge `e`. -/
theorem idx_v52 (e : Fin 500000) (d : Fin 128) : Read.idx_main_v52 (ix2 e d) = ix2 e (0 : Fin 1) :=
  funext fun a => Fin.ext (by match a with | ⟨0, _⟩ => rfl | ⟨1, _⟩ => rfl)

/-- The message of edge `e` at feature `d`: its attention weight times the product of its source and relation rows. -/
theorem msg_apply (e : Fin 500000) (d : Fin 128) :
    Read.val_main_v53 (F := Ideal) x2 x3 x4 x5 x8 x9 x10 x11 x12 x13 x14 (ix2 e d)
      = rowMsg ⟨x8, x9, x10, x11, x12, x13, x14⟩
        (fun k => Read.val_main_v12 (F := Ideal) x4 x5 (ix2 e k))
        (fun k => Read.val_main_v19 (F := Ideal) x3 x5 (ix2 e k))
        (fun k => Read.val_main_v28 (F := Ideal) x2 x5 (ix2 e k)) d := by
  rw [Read.val_main_v53_apply, Read.val_main_v52_apply, Read.val_main_v51_apply, idx_v52, alpha_apply]
  rfl

end Cert.ReferenceIdeal.Rows

end
-- ==== Proof.Bridge.lean ====
/-
  The kernel program's results as the reference's own stages of the launch arrays.

  Region 0 finds the weights as launched and, as its row operands, the gathered rows under zero padding; so for an
  edge e < 500000 the rows it reads are the reference's gathered rows, and its two output arrays, cut back to 500000
  rows, are the reference's attention and message arrays row by row. The scatter-add between the regions is the same
  operation on both sides applied to equal arguments, and region 1's blocked matrix product is the reference's whole
  product row by row.
-/
import proofs.«141558_j82678120448824_1_alg».proof.Proof.RunAll
import proofs.«141558_j82678120448824_1_alg».proof.Proof.HostReads
import proofs.«141558_j82678120448824_1_alg».proof.Proof.KernelArrays
import proofs.«141558_j82678120448824_1_alg».proof.Proof.RefRows
import Idealize.ShloMosaic.Lib.KernelVsHost
import Idealize.ShloMosaic.Lib.Pipeline.Value

set_option maxRecDepth 16384

noncomputable section

namespace Cert.KernelIdeal.Result

open Cert.KernelIdeal Cert.KernelIdeal.Gen Cert.Attn Cert.KernelIdeal.Arrays Cert.KernelIdeal.HostReads
open Idealize.ShloMosaic Idealize.ShloMosaic.TcCoe Idealize.ShloMosaic.ValueIdx Idealize.SL.Sem
open Cert.ReferenceIdeal (Read.val_main_v12 Read.val_main_v19 Read.val_main_v28 Read.val_main_v50 Read.val_main_v53 Read.val_main_v56 Read.val_main_v57)

variable (m : (ℓ : Loc nD τ sig) → Buf (Elt Ideal) ℓ) (ρ : Dev nD → PrngReg)

theorem weights_ext {a a' : (⟨2, ![128, 64]⟩ : Shape).Idx → EReal} {b b' : (⟨1, ![64]⟩ : Shape).Idx → EReal}
    {r r' q q' s s' : (⟨2, ![128, 64]⟩ : Shape).Idx → EReal} {w w' : (⟨2, ![64, 1]⟩ : Shape).Idx → EReal}
    {z z' : (⟨1, ![1]⟩ : Shape).Idx → EReal}
    (h1 : a = a') (h2 : b = b') (h3 : r = r') (h4 : q = q') (h5 : s = s') (h6 : w = w') (h7 : z = z') :
    (⟨a, b, r, q, s, w, z⟩ : Weights) = ⟨a', b', r', q', s', w', z'⟩ := by
  subst h1 h2 h3 h4 h5 h6 h7; rfl

/-- Region 0 finds the weights as launched. -/
theorem wts_eq (c : Dev nD) : wts (V6 m ρ) c
    = ⟨(m ((c : Thread nD τ).loc main_arg8)), (m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14))⟩ :=
  weights_ext (W6_arg8 m ρ c) (W6_arg9 m ρ c) (W6_arg10 m ρ c) (W6_arg11 m ρ c) (W6_arg12 m ρ c) (W6_arg13 m ρ c) (W6_arg14 m ρ c)

/-- An edge's row of the padded array is its row of the array padded: the padding is below row 500000. -/
theorem pad_row {x : (⟨2, ![500000, 128]⟩ : Shape).Idx → EReal} {v : S_.Idx → EReal} (e : Fin 500000) (k : Fin 128) :
    pad S503808x128 ![0, 0] ![3808, 0] ![0, 0] x v pads_S500000x128_S503808x128_038080_000 h_S_
      (ix2 (⟨e.val, by have := e.isLt; omega⟩ : Fin 503808) k) = x (ix2 e k) :=
  pad_apply_of_inside _ _ _ _ _ _ _ _ (ix2 e k) fun a => by
    match a with
    | ⟨0, _⟩ => show e.val = 0 + e.val * (0 + 1); omega
    | ⟨1, _⟩ => show k.val = 0 + k.val * (0 + 1); omega

/-- The rows region 0 reads for an edge are the reference's gathered rows. -/
theorem hs_row (c : Dev nD) (e : Fin 500000) : hsRow (V6 m ρ) c ⟨e.val, by have := e.isLt; omega⟩
    = fun k => Read.val_main_v12 (F := Ideal) (m ((c : Thread nD τ).loc main_arg4)) (m ((c : Thread nD τ).loc main_arg5)) (ix2 e k) := by
  funext k
  show W6 m ρ c (Proc.devRef .tc main_v29) (ix2 (⟨e.val, _⟩ : Fin 503808) k) = _
  rw [W6_v29]
  exact pad_row e k
theorem hr_row (c : Dev nD) (e : Fin 500000) : hrRow (V6 m ρ) c ⟨e.val, by have := e.isLt; omega⟩
    = fun k => Read.val_main_v19 (F := Ideal) (m ((c : Thread nD τ).loc main_arg3)) (m ((c : Thread nD τ).loc main_arg5)) (ix2 e k) := by
  funext k
  show W6 m ρ c (Proc.devRef .tc main_v30) (ix2 (⟨e.val, _⟩ : Fin 503808) k) = _
  rw [W6_v30]
  exact pad_row e k
theorem hq_row (c : Dev nD) (e : Fin 500000) : hqRow (V6 m ρ) c ⟨e.val, by have := e.isLt; omega⟩
    = fun k => Read.val_main_v28 (F := Ideal) (m ((c : Thread nD τ).loc main_arg2)) (m ((c : Thread nD τ).loc main_arg5)) (ix2 e k) := by
  funext k
  show W6 m ρ c (Proc.devRef .tc main_v31) (ix2 (⟨e.val, _⟩ : Fin 503808) k) = _
  rw [W6_v31]
  exact pad_row e k

/-- The attention result is the reference's attention stage of the launch arrays. -/
theorem alpha_eq (c : Dev nD) : W9 m ρ c (Proc.devRef .tc main_v34)
    = Read.val_main_v50 (F := Ideal) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W9_v34, final11]
  funext i
  obtain ⟨e, z, rfl⟩ : ∃ (e : Fin 500000) (z : Fin 1), i = ix2 e z := ⟨i 0, i 1, @eq_ix2 500000 1 i⟩
  refine (extractStridedSlice_apply _ _ _ (ix2 e z) (ix2 (⟨e.val, by have := e.isLt; omega⟩ : Fin 503808) z) fun a => by
    match a with
    | ⟨0, _⟩ => show e.val = 0 + e.val; omega
    | ⟨1, _⟩ => show z.val = 0 + z.val; omega).trans ?_
  refine Eq.trans ?_ (Cert.ReferenceIdeal.Rows.alpha_apply _ _ _ _ _ _ _ _ _ _ _ e z).symm
  exact rowAlpha_congr (wts_eq m ρ c) (hs_row m ρ c e) (hr_row m ρ c e) (hq_row m ρ c e)

/-- The first 500000 rows of region 0's message array are the reference's message stage. -/
theorem msg_eq (c : Dev nD) :
    extractStridedSlice S500000x128 ![0, 0] ((dat0 (V6 m ρ) c).arrAt 10 cfg0.N) slices_S503808x128_S500000x128_0_0
    = Read.val_main_v53 (F := Ideal) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [final10]
  funext i
  obtain ⟨e, d, rfl⟩ : ∃ (e : Fin 500000) (d : Fin 128), i = ix2 e d := ⟨i 0, i 1, @eq_ix2 500000 128 i⟩
  refine (extractStridedSlice_apply _ _ _ (ix2 e d) (ix2 (⟨e.val, by have := e.isLt; omega⟩ : Fin 503808) d) fun a => by
    match a with
    | ⟨0, _⟩ => show e.val = 0 + e.val; omega
    | ⟨1, _⟩ => show d.val = 0 + d.val; omega).trans ?_
  refine Eq.trans ?_ (Cert.ReferenceIdeal.Rows.msg_apply _ _ _ _ _ _ _ _ _ _ _ e d).symm
  exact rowMsg_congr (wts_eq m ρ c) (hs_row m ρ c e) (hr_row m ρ c e) (hq_row m ρ c e) rfl

/-- Region 1's row operand is the reference's aggregated messages. -/
theorem agg_eq (c : Dev nD) : W8 m ρ c (Proc.devRef .tc main_v37)
    = Read.val_main_v56 (F := Ideal) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W8_v37, msg_eq]
  rfl

/-- The new hidden state is the reference's last stage of the launch arrays. -/
theorem hidden_eq (c : Dev nD) : W9 m ρ c (Proc.devRef .tc main_v38)
    = Read.val_main_v57 (F := Ideal) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [W9_v38, final1_2]
  funext i
  obtain ⟨n, d, rfl⟩ : ∃ (n : Fin 200000) (d : Fin 128), i = ix2 n d := ⟨i 0, i 1, @eq_ix2 200000 128 i⟩
  refine Eq.trans ?_ (Cert.ReferenceIdeal.Rows.hidden_apply _ _ _ _ _ _ _ _ _ _ _ _ n d).symm
  refine rowDot_congr ?_ (W8_arg15 m ρ c) rfl
  funext k
  show W8 m ρ c (Proc.devRef .tc main_v37) (ix2 n k) = _
  rw [agg_eq]

/-- THE KERNEL PROGRAM'S RUN, READ: every weakly fair execution terminates, nothing faulting, with the two constant
    results at their literals, the new hidden state and the attention weights at the reference's stages of the launch
    arrays, and every argument array as launched. -/
theorem kernel_value : θ_run defs (onTc (τ := τ) (main (F := Ideal))) ⟨m, fun _ => 0, ρ⟩ (fun r => ∀ c : Dev nD,
      r.2.mem ((c.tc : Thread nD τ).loc main_cst) = constant (F := Ideal) S2 .f32 0x45C35000#32
      ∧ r.2.mem ((c.tc : Thread nD τ).loc main_cst_0) = constant (F := Ideal) S2 .f32 0x46742400#32
      ∧ r.2.mem ((c.tc : Thread nD τ).loc main_v38) = Read.val_main_v57 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v34) = Read.val_main_v50 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg6) = m ((c.tc : Thread nD τ).loc main_arg6)
      ∧ r.2.mem ((c.tc : Thread nD τ).loc main_arg5) = m ((c.tc : Thread nD τ).loc main_arg5)
      ∧ r.2.mem ((c.tc : Thread nD τ).loc main_arg7) = m ((c.tc : Thread nD τ).loc main_arg7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_cst (by decide))).trans (W9_cst m ρ c),
     (h c _ (mem_uc main_cst_0 (by decide))).trans (W9_cst_0 m ρ c),
     (h c _ (mem_uc main_v38 (by decide))).trans (hidden_eq m ρ c),
     (h c _ (mem_uc main_v34 (by decide))).trans (alpha_eq m ρ c),
     (h c _ (mem_uc main_arg6 (by decide))).trans (W9_main_arg6 m ρ c),
     (h c _ (mem_uc main_arg5 (by decide))).trans (W9_main_arg5 m ρ c),
     (h c _ (mem_uc main_arg7 (by decide))).trans (W9_main_arg7 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c)⟩)
    (Cert.KernelIdeal.RunAll.run_all m ρ)

end Cert.KernelIdeal.Result

end
-- ==== Proof.lean ====
/-
  The certificate of a graph-attention layer: a two-region kernel program against its plain reference, equal over the
  extended reals.

  Per edge e, with gathered rows hs, hr, hq (rows of hidden, of the relation embeddings, of the query embeddings):
    pre    = hs·Ws + b + hr·Wr + hq·Wq + (hr∘hq)·Wqr        (64 hidden units)
    alpha  = logistic(max(pre, 0)·Wα + bα)
    msg    = alpha · (hs∘hr)
  and hidden_new = (scatter-add of msg by the edges' object column) · Wh.

  The kernel program gathers as the reference does, pads the three gathered arrays with zero rows to 123 blocks of
  4096, runs the attention arithmetic block by block in its first region, cuts the outputs back to 500000 rows,
  scatter-adds as the reference does, and multiplies 40 blocks of 5000 rows by Wh in its second region. Over the
  extended reals a change of float format is the identity and a blocked product into a zero accumulator is the plain
  sum, and both programs group the additions alike; so each result of the kernel program IS the reference's stage of
  the launch arrays (Bridge), and the reference's generated run ends at the same stages of arrays that agree.
  No precondition is used: the equalities are congruences, not laws that could fail at an infinity.
  The idealization rewrote no operation, so that conjunct is trivial.
-/
import proofs.«141558_j82678120448824_1_alg».proof.Defs
import proofs.«141558_j82678120448824_1_alg».proof.Proof.Gen.Kernel
import proofs.«141558_j82678120448824_1_alg».proof.Proof.Gen.Kernel.Skeleton
import proofs.«141558_j82678120448824_1_alg».proof.Proof.Gen.Kernel.Launch
import proofs.«141558_j82678120448824_1_alg».proof.Proof.Gen.Kernel.Points
import proofs.«141558_j82678120448824_1_alg».proof.Proof.Gen.Kernel.Frame
import proofs.«141558_j82678120448824_1_alg».proof.Proof.Gen.KernelIdeal
import proofs.«141558_j82678120448824_1_alg».proof.Proof.Gen.KernelIdeal.Skeleton
import proofs.«141558_j82678120448824_1_alg».proof.Proof.Gen.KernelIdeal.Launch
import proofs.«141558_j82678120448824_1_alg».proof.Proof.Gen.KernelIdeal.Points
import proofs.«141558_j82678120448824_1_alg».proof.Proof.Gen.KernelIdeal.Frame
import proofs.«141558_j82678120448824_1_alg».proof.Proof.Gen.ReferenceIdeal
import proofs.«141558_j82678120448824_1_alg».proof.Proof.Gen.Pre_finite_inputs
import proofs.«141558_j82678120448824_1_alg».proof.Proof.Gen.ReferenceIdeal.Run
import proofs.«141558_j82678120448824_1_alg».proof.Proof.Gen.ReferenceIdeal.Read
import proofs.«141558_j82678120448824_1_alg».proof.Proof.Bridge
import Idealize.ShloMosaic.Adequacy
import Idealize.ShloMosaic.Init

set_option maxRecDepth 16384

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

/-- The word-level kernel program runs and keeps its arguments: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the seven results dropped. -/
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- Both idealized programs, from memories agreeing on the arguments, end with equal results: the kernel program's are
    the reference's stages of ITS launch arrays, the reference's are the same stages of arrays that agree with those. -/
theorem algebraic : Cert.algebraic_KernelIdeal_ReferenceIdeal := by
  intro m ρ m' ρ' _ hagree
  refine ⟨fun c => constant (F := Ideal) Cert.KernelIdeal.S2 .f32 0x45C35000#32, fun c => constant (F := Ideal) Cert.KernelIdeal.S2 .f32 0x46742400#32,
    fun c => Cert.ReferenceIdeal.Read.val_main_v57 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v50 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => m ((c.tc : Thread Cert.KernelIdeal.nD Cert.KernelIdeal.τ).loc Cert.KernelIdeal.main_arg6), fun c => m ((c.tc : Thread Cert.KernelIdeal.nD Cert.KernelIdeal.τ).loc Cert.KernelIdeal.main_arg5), fun c => m ((c.tc : Thread Cert.KernelIdeal.nD Cert.KernelIdeal.τ).loc Cert.KernelIdeal.main_arg7),
    Cert.KernelIdeal.Result.kernel_value m ρ, ?_⟩
  refine (θ_run Cert.ReferenceIdeal.defs _ _).mono (fun r h c => ?_) (Cert.ReferenceIdeal.Value.run (F := Ideal) m' ρ')
  obtain ⟨h0, h1, h2, h3, h4, h5, h6, hrest⟩ := h c
  obtain ⟨a0, a1, a2, a3, a4, a5, a6, a7, a8, a9, a10, a11, a12, a13, a14, a15⟩ := hagree c
  refine ⟨h0, h1, ?_, ?_, h4.trans a6, h5.trans a5, h6.trans a7, hrest⟩
  · rw [h2, Cert.ReferenceIdeal.Read.val_main_v57_eq, a2, a3, a4, a5, a8, a9, a10, a11, a12, a13, a14, a15]
  · rw [h3, Cert.ReferenceIdeal.Read.val_main_v50_eq, a2, a3, a4, a5, a8, a9, a10, a11, a12, a13, a14]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
